-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S768x1024 : Shape := ⟨2, ![768, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x77x768 : S_.BroadcastsInDim S16x77x768 (![] : Fin 0 → Fin S16x77x768.rank)
  reducesTo_S16x77x768_S_d0_1_2 : S16x77x768.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S768x1024 : S_.BroadcastsInDim S768x1024 (![] : Fin 0 → Fin S768x1024.rank)
  reducesTo_S768x1024_S_d0_1 : S768x1024.ReducesTo [0, 1] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S768x1024 .f32) (main_arg5 : FVec F S1024 .f32) (main_arg6 : FVec F S768x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S768x1024 .f32 := Host.absf main_arg6
  let main_cst_10 : FVec F S_ .f32 := constant S_ .f32 0x7F800000#32
  let main_v30 : FVec F S768x1024 .f32 := broadcastInDim S768x1024 ![] bcast_S_S768x1024 main_cst_10
  let main_v31 : IVec S768x1024 1 := cmpf .olt main_v29 main_v30
  let main_c_11 : IVec S_ 1 := constantI S_ 1 1#1
  let main_v32 : IVec S_ 1 := (fun x v => Host.reduce IntOp.andi x v reducesTo_S768x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x4096x1024 .f32) (main_arg1 : FVec F S16x77x768 .f32) (main_arg2 : FVec F S1024x1024 .f32) (main_arg3 : FVec F S1024 .f32) (main_arg4 : FVec F S768x1024 .f32) (main_arg5 : FVec F S1024 .f32) (main_arg6 : FVec F S768x1024 .f32) (main_arg7 : FVec F S1024 .f32) (main_arg8 : FVec F S1024x1024 .f32) (main_arg9 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x77x768 .f32 := Host.absf main_arg1
  let main_cst_0 : FVec F S_ .f32 := constant S_ .f32 0x7F800000#32
  let main_v5 : FVec F S16x77x768 .f32 := broadcastInDim S16x77x768 ![] bcast_S_S16x77x768 main_cst_0
  let main_v6 : IVec S16x77x768 1 := cmpf .olt main_v4 main_v5
  let main_c_1 : IVec S_ 1 := constantI S_ 1 1#1
  let main_v7 : IVec S_ 1 := (fun x v => Host.reduce IntOp.andi x v reducesTo_S16x77x768_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S768x1024 : Shape := ⟨2, ![768, 1024]⟩
abbrev S_ : Shape := ⟨0, ![]⟩
abbrev S1x1024x1024 : Shape := ⟨3, ![1, 1024, 1024]⟩
abbrev S1x77x768 : Shape := ⟨3, ![1, 77, 768]⟩
abbrev S128x1024 : Shape := ⟨2, ![128, 1024]⟩
abbrev S77x768 : Shape := ⟨2, ![77, 768]⟩
abbrev S77x1024 : Shape := ⟨2, ![77, 1024]⟩
abbrev S1x1024 : Shape := ⟨2, ![1, 1024]⟩
abbrev S78x1024 : Shape := ⟨2, ![78, 1024]⟩
abbrev S1024x128 : Shape := ⟨2, ![1024, 128]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x77x768, .f32⟩
  | .hbm, ⟨2, _⟩ => ⟨S1024x1024, .f32⟩
  | .hbm, ⟨3, _⟩ => ⟨S1024, .f32⟩
  | .hbm, ⟨4, _⟩ => ⟨S768x1024, .f32⟩
  | .hbm, ⟨5, _⟩ => ⟨S1024, .f32⟩
  | .hbm, ⟨6, _⟩ => ⟨S768x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S768x1024, .bf16⟩
  | .hbm, ⟨18, _⟩ => ⟨S768x1024, .bf16⟩
  | .hbm, ⟨19, _⟩ => ⟨S1024x1024, .bf16⟩
  | .hbm, ⟨20, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x77x768, .f32⟩
  | .local _ .vmem, ⟨3, _⟩ => ⟨S1x77x768, .f32⟩
  | .local _ .vmem, ⟨4, _⟩ => ⟨S1024x1024, .bf16⟩
  | .local _ .vmem, ⟨5, _⟩ => ⟨S1024, .f32⟩
  | .local _ .vmem, ⟨6, _⟩ => ⟨S768x1024, .bf16⟩
  | .local _ .vmem, ⟨7, _⟩ => ⟨S1024, .f32⟩
  | .local _ .vmem, ⟨8, _⟩ => ⟨S768x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1x1024x1024, .f32⟩
  | .local _ .vmem, ⟨13, _⟩ => ⟨S1x1024x1024, .f32⟩
  | .local _ .vmem, ⟨14, _⟩ => ⟨S128x1024, .bf16⟩
  | .local _ .vmem, ⟨15, _⟩ => ⟨S128x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x77x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  inb_S1x77x768_S1x77x768_0_0_0 : ∀ a, (![0, 0, 0] : Fin 3 → Nat) a + S1x77x768.size a ≤ S1x77x768.size a
  h_S1x77x768 : 0 < S1x77x768.numel
  shapeCasts_S1x77x768_S77x768 : S1x77x768.ShapeCasts S77x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S77x1024 : S1x1024.Broadcasts S77x1024
  inb_S128x1024_S77x1024_0_0 : ∀ a, (![0, 0] : Fin 2 → Nat) a + S77x1024.size a ≤ S128x1024.size a
  h_S77x1024 : 0 < S77x1024.numel
  shapeCasts_S77x1024_S77x1024 : S77x1024.ShapeCasts S77x1024
  inb_S128x1024_S78x1024_0_0 : ∀ a, (![0, 0] : Fin 2 → Nat) a + S78x1024.size a ≤ S128x1024.size a
  h_S78x1024 : 0 < S78x1024.numel
  slices_S78x1024_S77x1024_0_0 : S78x1024.Slices ![0, 0] S77x1024
  packedbf16_S128x1024_S78x1024_0_0 : (Rect.unit (s := S128x1024) ![0, 0] S78x1024.size inb_S128x1024_S78x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024_S1024 : S1024.ShapeCasts S1024
  broadcasts_S1x1024_S1024x1024 : S1x1024.Broadcasts S1024x1024
  iota_S1024x128_d1_w32 : S1024x128.Iotas .tc 32 [1]
  reduces_S1024x128_S1024 : S1024x128.Reduces [1] S1024
  shapeCasts_S1024_S1024x1 : S1024.ShapeCasts S1024x1
  broadcasts_S1024x1_S1024x128 : S1024x1.Broadcasts S1024x128
  shapeCasts_S1024x1024_S1x1024x1024 : S1024x1024.ShapeCasts S1x1024x1024
  dot_S77x768_S768x1024_S77x1024_1_0_0_1_n_n_wf : DotDims.WF S77x768 S768x1024 S77x1024 [1] [0] [0] [1] [] []
  dot_S1024x1024_S1024x1024_S1024x1024_1_0_0_1_n_n_wf : DotDims.WF S1024x1024 S1024x1024 S1024x1024 [1] [0] [0] [1] [] []
  dot_S1024x1024_S128x1024_S1024x128_1_1_0_0_n_n_wf : DotDims.WF S1024x1024 S128x1024 S1024x128 [1] [1] [0] [0] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x77x768.size a ≤ S16x77x768.size a
  hwx0_1 : ∀ i : grid0.Coords, EltTy.bits .f32 = 32 ∨ (Rect.block (s := S16x77x768) S1x77x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1024.size a ≤ S768x1024.size a
  hwx0_4 : ∀ i : grid0.Coords, EltTy.bits .bf16 = 32 ∨ (Rect.block (s := S768x1024) S768x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x1024.size a ≤ S768x1024.size a
  hwx0_6 : ∀ i : grid0.Coords, EltTy.bits .bf16 = 32 ∨ (Rect.block (s := S768x1024) S768x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x1024.size a ≤ S16x4096x1024.size a
  hwx0_10 : ∀ i : grid0.Coords, EltTy.bits .f32 = 32 ∨ (Rect.block (s := S16x4096x1024) S1x1024x1024.size (cc0_transform_10 i) (hinb0_10 i)).WholeWords (EltTy.packing .f32)

variable [Facts₀]

def dot_S77x768_S768x1024_S77x1024_1_0_0_1_n_n : DotDims S77x768 S768x1024 S77x1024 where
  lhsContracting := [1]
  rhsContracting := [0]
  lhsNonContracting := [0]
  rhsNonContracting := [1]
  lhsBatch := []
  rhsBatch := []
  wf := dot_S77x768_S768x1024_S77x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x77x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S768x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S768x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S768x1024 : Shape := ⟨2, ![768, 1024]⟩
abbrev S1x1x1024 : Shape := ⟨3, ![1, 1, 1024]⟩
abbrev S16x77x1024 : Shape := ⟨3, ![16, 77, 1024]⟩
abbrev S16x4096x77 : Shape := ⟨3, ![16, 4096, 77]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x77x768, .f32⟩
  | .hbm, ⟨2, _⟩ => ⟨S1024x1024, .f32⟩
  | .hbm, ⟨3, _⟩ => ⟨S1024, .f32⟩
  | .hbm, ⟨4, _⟩ => ⟨S768x1024, .f32⟩
  | .hbm, ⟨5, _⟩ => ⟨S1024, .f32⟩
  | .hbm, ⟨6, _⟩ => ⟨S768x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16x4096x1024, .f32⟩
  | .hbm, ⟨11, _⟩ => ⟨S1x1x1024, .f32⟩
  | .hbm, ⟨12, _⟩ => ⟨S16x4096x1024, .f32⟩
  | .hbm, ⟨13, _⟩ => ⟨S16x4096x1024, .f32⟩
  | .hbm, ⟨14, _⟩ => ⟨S16x77x1024, .f32⟩
  | .hbm, ⟨15, _⟩ => ⟨S1x1x1024, .f32⟩
  | .hbm, ⟨16, _⟩ => ⟨S16x77x1024, .f32⟩
  | .hbm, ⟨17, _⟩ => ⟨S16x77x1024, .f32⟩
  | .hbm, ⟨18, _⟩ => ⟨S16x77x1024, .f32⟩
  | .hbm, ⟨19, _⟩ => ⟨S1x1x1024, .f32⟩
  | .hbm, ⟨20, _⟩ => ⟨S16x77x1024, .f32⟩
  | .hbm, ⟨21, _⟩ => ⟨S16x77x1024, .f32⟩
  | .hbm, ⟨22, _⟩ => ⟨S16x4096x77, .f32⟩
  | .hbm, ⟨23, _⟩ => ⟨S_, .f32⟩
  | .hbm, ⟨24, _⟩ => ⟨S16x4096x77, .f32⟩
  | .hbm, ⟨25, _⟩ => ⟨S16x4096x77, .f32⟩
  | .hbm, ⟨26, _⟩ => ⟨S_, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S16x4096x1, .f32⟩
  | .hbm, ⟨32, _⟩ => ⟨S16x4096x77, .f32⟩
  | .hbm, ⟨33, _⟩ => ⟨S16x4096x77, .f32⟩
  | .hbm, ⟨34, _⟩ => ⟨S16x4096x77, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x77, .f32⟩
  | .hbm, ⟨39, _⟩ => ⟨S16x4096x77, .f32⟩
  | .hbm, ⟨40, _⟩ => ⟨S16x4096x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S1x1x1024_S16x77x1024_0_1_2 : S1x1x1024.BroadcastsInDim S16x77x1024 (![0, 1, 2] : Fin 3 → Fin S16x77x1024.rank)
  bcast_S_S16x4096x77 : S_.BroadcastsInDim S16x4096x77 (![] : Fin 0 → Fin S16x4096x77.rank)
  reducesTo_S16x4096x77_S16x4096_d2 : S16x4096x77.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x77_0_1_2 : S16x4096x1.BroadcastsInDim S16x4096x77 (![0, 1, 2] : Fin 3 → Fin S16x4096x77.rank)
  dot_S16x4096x1024_S1024x1024_S16x4096x1024_2_0_01_1_n_n_wf : DotDims.WF S16x4096x1024 S1024x1024 S16x4096x1024 [2] [0] [0, 1] [1] [] []
  dot_S16x77x768_S768x1024_S16x77x1024_2_0_01_1_n_n_wf : DotDims.WF S16x77x768 S768x1024 S16x77x1024 [2] [0] [0, 1] [1] [] []
  dot_S16x4096x1024_S16x77x1024_S16x4096x77_2_2_1_1_0_0_wf : DotDims.WF S16x4096x1024 S16x77x1024 S16x4096x77 [2] [2] [1] [1] [0] [0]
  dot_S16x4096x77_S16x77x1024_S16x4096x1024_2_1_1_2_0_0_wf : DotDims.WF S16x4096x77 S16x77x1024 S16x4096x1024 [2] [1] [1] [2] [0] [0]

variable [Facts₀]

def dot_S16x4096x1024_S1024x1024_S16x4096x1024_2_0_01_1_n_n : DotDims S16x4096x1024 S1024x1024 S16x4096x1024 where
  lhsContracting := [2]
  rhsContracting := [0]
  lhsNonContracting := [0, 1]
  rhsNonContracting := [1]
  lhsBatch := []
  rhsBatch := []
  wf := dot_S16x4096x1024_S1024x1024_S16x4096x1024_2_0_01_1_n_n_wf
def dot_S16x77x768_S768x1024_S16x77x1024_2_0_01_1_n_n : DotDims S16x77x768 S768x1024 S16x77x1024 where
  lhsContracting := [2]
  rhsContracting := [0]
  lhsNonContracting := [0, 1]
  rhsNonContracting := [1]
  lhsBatch := []
  rhsBatch := []
  wf := dot_S16x77x768_S768x1024_S16x77x1024_2_0_01_1_n_n_wf
def dot_S16x4096x1024_S16x77x1024_S16x4096x77_2_2_1_1_0_0 : DotDims S16x4096x1024 S16x77x1024 S16x4096x77 where
  lhsContracting := [2]
  rhsContracting := [2]
  lhsNonContracting := [1]
  rhsNonContracting := [1]
  lhsBatch := [0]
  rhsBatch := [0]
  wf := dot_S16x4096x1024_S16x77x1024_S16x4096x77_2_2_1_1_0_0_wf
def dot_S16x4096x77_S16x77x1024_S16x4096x1024_2_1_1_2_0_0 : DotDims S16x4096x77 S16x77x1024 S16x4096x1024 where
  lhsContracting := [2]
  rhsContracting := [1]
  lhsNonContracting := [1]
  rhsNonContracting := [2]
  lhsBatch := [0]
  rhsBatch := [0]
  wf := dot_S16x4096x77_S16x77x1024_S16x4096x1024_2_1_1_2_0_0_wf

class Facts : Prop extends Facts₀ where

variable [Facts]
-- ==== Proof.KB.Runs.lean ====
/-
  What the two ways through the attention body share: the test "is this the first query tile of its batch", and
  where it holds on the 16 × 4 grid of (batch, tile) points.
-/
import proofs.«156907_j61048665145417_2_alg».proof.Proof.Gen.Kernel.Frame
import proofs.«156907_j61048665145417_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the tile coordinate is zero. -/
abbrev cond0_0 (i : grid0.Coords) : Prop := (Scalar.cmpi .ne (Scalar.extui (Scalar.cmpi .eq (BitVec.ofNat 32 (i 1).val) 0#32)) 0#32) = 1#1

/-- It holds exactly at the points that open a batch: every fourth point of the 64. -/
theorem hcond0_0 : ∀ t : Fin cfg0.N, cond0_0 (grid0.coords t) ↔ t.val % 4 = 0 :=
  (by decide +kernel : ∀ t : Fin grid0.N, cond0_0 (grid0.coords t) ↔ t.val % 4 = 0)

/-- The two scratch operands: the padded keys and the padded values of the current batch, whole buffers of the
    kernel's own. -/
abbrev scM0_0 : Memref sig .tc .vmem S128x1024 .bf16 := Memref.whole cc0_scratch0
abbrev scM0_1 : Memref sig .tc .vmem S128x1024 .bf16 := Memref.whole cc0_scratch1
/-- The same as views, through which their contents are stated. -/
abbrev VS0_0 : View sig .tc .vmem S128x1024 .bf16 := scM0_0.view
abbrev VS0_1 : View sig .tc .vmem S128x1024 .bf16 := scM0_1.view
/-- One staging buffer of the output window, through which its contents are stated. -/
abbrev VO0_10 : View sig .tc .vmem S1x1024x1024 .f32 := (win0_10.stage ⟨0, by decide⟩).view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KB.RunA.lean ====
/-
  The attention body at a point that OPENS a batch: it first clears both scratch buffers, computes the batch's 77 key
  and value rows into their first rows, then handles the query tile.  Stated on any whole staging memrefs: the ten
  inputs at given contents, the output and both scratches at anything; the body runs to the end, hands the inputs
  back untouched, and leaves the output and the two scratches with lists of written pieces that the run itself finds.
-/
import proofs.«156907_j61048665145417_2_alg».proof.Proof.KB.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i)
    (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) :
    Σ' (L10 : List (View.Piece (Elt F) S1x1024x1024 .f32)), Σ' (LS0 : List (View.Piece (Elt F) S128x1024 .bf16)), { LS1 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__cross_attn_kernel_eq_skeleton]; unfold cc0__cross_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.Kernel.Gen

end
-- ==== Proof.KB.RunB.lean ====
/-
  The attention body at a point INSIDE a batch (not its first tile): the keys and values of the batch are already in
  the two scratch buffers, which the body only reads.  Stated on any whole staging memrefs: the ten inputs and the two
  scratches at given contents, the output at anything; the body runs to the end, hands inputs and scratches back
  untouched, and leaves the output with a list of written pieces that the run itself finds.
-/
import proofs.«156907_j61048665145417_2_alg».proof.Proof.KB.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : ¬cond0_0 i)
    (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (xs0 xs1 : Vec F S128x1024 .bf16) :
    { L10 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs0 ∗ owns (c : Thread nD τ) arg14 fullShare xs1) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__cross_attn_kernel_eq_skeleton]; unfold cc0__cross_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _; isplitr; · ipureintro; exact harg14.read_unread _
    iexact HS1

end Cert.Kernel.Gen

end
-- ==== Proof.KB.Frame.lean ====
/-
  The run of the whole program around the attention kernel: what the output tile and the two scratch buffers (the
  batch's padded keys and values) hold after each of the 64 grid points, by recursion on the point — a point that
  opens a batch recomputes both scratches, a later tile of the batch keeps them —, the proof data of the pipeline
  over those contents, the body's obligation at a generic point from the two runs of the body, and the launch:
  every weakly fair execution terminates, faults nowhere, and leaves the argument arrays as they were.
-/
import proofs.«156907_j61048665145417_2_alg».proof.Proof.KB.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and that no window is ever idle -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .f32 := win0_10.stage (cfg0.slots t 10)
abbrev hs0_10 (t : Fin cfg0.N) : (ms0_10 t).IsWhole := hstage0_10 ((cfg0.slots t 10).cast nbuf0_10)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

/-! ## The two runs at a grid point -/

/-- The body's run at a point that opens a batch, on the point's memrefs and input blocks. -/
abbrev runA (c : Dev nD) (t : Fin cfg0.N) (h : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t)

/-- The body's run at a later tile of a batch, the scratches at given contents. -/
abbrev runB (c : Dev nD) (t : Fin cfg0.N) (h : ¬t.val % 4 = 0) (xs0 xs1 : Vec F S128x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun hc => h ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) xs0 xs1

/-- The pieces the opening run stores into the output tile tile it. -/
theorem coverA_10 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S1x1024x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL _ S1x1024x1024.size (by sl_kernel_rfl) y
/-- Its pieces for the key scratch cover it (the clearing store alone does). -/
theorem coverA_s0 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S128x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL _ S128x1024.size (by sl_kernel_rfl) y
/-- Likewise for the value scratch. -/
theorem coverA_s1 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S128x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL _ S128x1024.size (by sl_kernel_rfl) y
/-- The pieces the later run stores into the output tile tile it. -/
theorem coverB_10 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : ¬cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (xs0 xs1 : Vec F S128x1024 .bf16) (y : S1x1024x1024.Idx) :
    ∃ pc ∈ (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1, y ∈ pc.1.set :=
  View.cover_of_tiledL _ S1x1024x1024.size (by sl_kernel_rfl) y

/-- What the opening run leaves in the output tile, the key scratch and the value scratch: its pieces read back. -/
def outA (c : Dev nD) (t : Fin cfg0.N) (h : t.val % 4 = 0) : Vec F S1x1024x1024 .f32 :=
  VO0_10.read (Elt F) (VO0_10.writes (Elt F) VO0_10.junk (runA m c t h).1)
def keyA (c : Dev nD) (t : Fin cfg0.N) (h : t.val % 4 = 0) : Vec F S128x1024 .bf16 :=
  VS0_0.read (Elt F) (VS0_0.writes (Elt F) VS0_0.junk (runA m c t h).2.1)
def valA (c : Dev nD) (t : Fin cfg0.N) (h : t.val % 4 = 0) : Vec F S128x1024 .bf16 :=
  VS0_1.read (Elt F) (VS0_1.writes (Elt F) VS0_1.junk (runA m c t h).2.2.1)
/-- What a later run leaves in the output tile. -/
def outB (c : Dev nD) (t : Fin cfg0.N) (h : ¬t.val % 4 = 0) (xs0 xs1 : Vec F S128x1024 .bf16) : Vec F S1x1024x1024 .f32 :=
  VO0_10.read (Elt F) (VO0_10.writes (Elt F) VO0_10.junk (runB m c t h xs0 xs1).1)

/-! ## What the output tile and the scratches hold after each point -/

/-- After point `n`: (the output tile, the key scratch, the value scratch). A point that opens a batch computes all
    three; a later one computes the tile from the scratches the point before left and keeps them. -/
def outsAt0 (c : Dev nD) : (n : ℕ) → n < cfg0.N → Vec F S1x1024x1024 .f32 × Vec F S128x1024 .bf16 × Vec F S128x1024 .bf16
  | 0, hn => (outA m c ⟨0, hn⟩ (Nat.zero_mod _), keyA m c ⟨0, hn⟩ (Nat.zero_mod _), valA m c ⟨0, hn⟩ (Nat.zero_mod _))
  | n + 1, hn =>
    if h0 : (n + 1) % 4 = 0 then
      (outA m c ⟨n + 1, hn⟩ h0, keyA m c ⟨n + 1, hn⟩ h0, valA m c ⟨n + 1, hn⟩ h0)
    else
      (outB m c ⟨n + 1, hn⟩ h0 (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (outA m c t h0, keyA m c t h0, valA m c t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt
      = (outB m c t h0 (outsAt0 m c (t.val - 1) (Nat.lt_of_le_of_lt (Nat.sub_le _ _) t.isLt)).2.1 (outsAt0 m c (t.val - 1) (Nat.lt_of_le_of_lt (Nat.sub_le _ _) t.isLt)).2.2,
         (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point both scratches hold anything; afterwards they
    hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 4 = 0
  · rw [outsAt0_A m c t h0]
    unfold outA keyA valA; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 c _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (coverA_s1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 c _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (coverA_s1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _ _ _ _)
  · rw [outsAt0_B m c t h0]
    unfold outB; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%e10, H10⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB_10 c _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Gen

end
-- ==== Proof.KI.Runs.lean ====
/-
  What the two ways through the attention body share: the test "is this the first query tile of its batch", and
  where it holds on the 16 × 4 grid of (batch, tile) points.
-/
import proofs.«156907_j61048665145417_2_alg».proof.Proof.Gen.KernelIdeal.Frame
import proofs.«156907_j61048665145417_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one branch condition, from the grid coordinates: the tile coordinate is zero. -/
abbrev cond0_0 (i : grid0.Coords) : Prop := (Scalar.cmpi .ne (Scalar.extui (Scalar.cmpi .eq (BitVec.ofNat 32 (i 1).val) 0#32)) 0#32) = 1#1

/-- It holds exactly at the points that open a batch: every fourth point of the 64. -/
theorem hcond0_0 : ∀ t : Fin cfg0.N, cond0_0 (grid0.coords t) ↔ t.val % 4 = 0 :=
  (by decide +kernel : ∀ t : Fin grid0.N, cond0_0 (grid0.coords t) ↔ t.val % 4 = 0)

/-- The two scratch operands: the padded keys and the padded values of the current batch, whole buffers of the
    kernel's own. -/
abbrev scM0_0 : Memref sig .tc .vmem S128x1024 .bf16 := Memref.whole cc0_scratch0
abbrev scM0_1 : Memref sig .tc .vmem S128x1024 .bf16 := Memref.whole cc0_scratch1
/-- The same as views, through which their contents are stated. -/
abbrev VS0_0 : View sig .tc .vmem S128x1024 .bf16 := scM0_0.view
abbrev VS0_1 : View sig .tc .vmem S128x1024 .bf16 := scM0_1.view
/-- One staging buffer of the output window, through which its contents are stated. -/
abbrev VO0_10 : View sig .tc .vmem S1x1024x1024 .f32 := (win0_10.stage ⟨0, by decide⟩).view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.RunA.lean ====
/-
  The attention body at a point that OPENS a batch: it first clears both scratch buffers, computes the batch's 77 key
  and value rows into their first rows, then handles the query tile.  Stated on any whole staging memrefs: the ten
  inputs at given contents, the output and both scratches at anything; the body runs to the end, hands the inputs
  back untouched, and leaves the output and the two scratches with lists of written pieces that the run itself finds.
-/
import proofs.«156907_j61048665145417_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i)
    (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) :
    Σ' (L10 : List (View.Piece (Elt F) S1x1024x1024 .f32)), Σ' (LS0 : List (View.Piece (Elt F) S128x1024 .bf16)), { LS1 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__cross_attn_kernel_eq_skeleton]; unfold cc0__cross_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.KernelIdeal.Gen

end
-- ==== Proof.KI.RunB.lean ====
/-
  The attention body at a point INSIDE a batch (not its first tile): the keys and values of the batch are already in
  the two scratch buffers, which the body only reads.  Stated on any whole staging memrefs: the ten inputs and the two
  scratches at given contents, the output at anything; the body runs to the end, hands inputs and scratches back
  untouched, and leaves the output with a list of written pieces that the run itself finds.
-/
import proofs.«156907_j61048665145417_2_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : ¬cond0_0 i)
    (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (xs0 xs1 : Vec F S128x1024 .bf16) :
    { L10 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs0 ∗ owns (c : Thread nD τ) arg14 fullShare xs1) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__cross_attn_kernel_eq_skeleton]; unfold cc0__cross_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _; isplitr; · ipureintro; exact harg14.read_unread _
    iexact HS1

end Cert.KernelIdeal.Gen

end
-- ==== Proof.KI.Frame.lean ====
/-
  The run of the whole program around the attention kernel: what the output tile and the two scratch buffers (the
  batch's padded keys and values) hold after each of the 64 grid points, by recursion on the point — a point that
  opens a batch recomputes both scratches, a later tile of the batch keeps them —, the proof data of the pipeline
  over those contents, the body's obligation at a generic point from the two runs of the body, and the launch:
  every weakly fair execution terminates, faults nowhere, and leaves the argument arrays as they were.
-/
import proofs.«156907_j61048665145417_2_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point, and that no window is ever idle -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .f32 := win0_10.stage (cfg0.slots t 10)
abbrev hs0_10 (t : Fin cfg0.N) : (ms0_10 t).IsWhole := hstage0_10 ((cfg0.slots t 10).cast nbuf0_10)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

/-! ## The two runs at a grid point -/

/-- The body's run at a point that opens a batch, on the point's memrefs and input blocks. -/
abbrev runA (c : Dev nD) (t : Fin cfg0.N) (h : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t)

/-- The body's run at a later tile of a batch, the scratches at given contents. -/
abbrev runB (c : Dev nD) (t : Fin cfg0.N) (h : ¬t.val % 4 = 0) (xs0 xs1 : Vec F S128x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun hc => h ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) xs0 xs1

/-- The pieces the opening run stores into the output tile tile it. -/
theorem coverA_10 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S1x1024x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL _ S1x1024x1024.size (by sl_kernel_rfl) y
/-- Its pieces for the key scratch cover it (the clearing store alone does). -/
theorem coverA_s0 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S128x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL _ S128x1024.size (by sl_kernel_rfl) y
/-- Likewise for the value scratch. -/
theorem coverA_s1 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (y : S128x1024.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL _ S128x1024.size (by sl_kernel_rfl) y
/-- The pieces the later run stores into the output tile tile it. -/
theorem coverB_10 (c : Dev nD) (i : grid0.Coords) (arg2 : Memref sig .tc .vmem S1x1024x1024 .f32) (harg2 : arg2.IsWhole) (arg3 : Memref sig .tc .vmem S1x77x768 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S768x1024 .bf16) (harg6 : arg6.IsWhole) (arg7 : Memref sig .tc .vmem S1024 .f32) (harg7 : arg7.IsWhole) (arg8 : Memref sig .tc .vmem S768x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x1024x1024 .f32) (harg12 : arg12.IsWhole) (arg13 : Memref sig .tc .vmem S128x1024 .bf16) (harg13 : arg13.IsWhole) (arg14 : Memref sig .tc .vmem S128x1024 .bf16) (harg14 : arg14.IsWhole) (hc0 : ¬cond0_0 i) (x0 : Vec F S1x1024x1024 .f32) (x1 : Vec F S1x77x768 .f32) (x2 : Vec F S1024x1024 .bf16) (x3 : Vec F S1024 .f32) (x4 : Vec F S768x1024 .bf16) (x5 : Vec F S1024 .f32) (x6 : Vec F S768x1024 .bf16) (x7 : Vec F S1024 .f32) (x8 : Vec F S1024x1024 .bf16) (x9 : Vec F S1024 .f32) (xs0 xs1 : Vec F S128x1024 .bf16) (y : S1x1024x1024.Idx) :
    ∃ pc ∈ (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1, y ∈ pc.1.set :=
  View.cover_of_tiledL _ S1x1024x1024.size (by sl_kernel_rfl) y

/-- What the opening run leaves in the output tile, the key scratch and the value scratch: its pieces read back. -/
def outA (c : Dev nD) (t : Fin cfg0.N) (h : t.val % 4 = 0) : Vec F S1x1024x1024 .f32 :=
  VO0_10.read (Elt F) (VO0_10.writes (Elt F) VO0_10.junk (runA m c t h).1)
def keyA (c : Dev nD) (t : Fin cfg0.N) (h : t.val % 4 = 0) : Vec F S128x1024 .bf16 :=
  VS0_0.read (Elt F) (VS0_0.writes (Elt F) VS0_0.junk (runA m c t h).2.1)
def valA (c : Dev nD) (t : Fin cfg0.N) (h : t.val % 4 = 0) : Vec F S128x1024 .bf16 :=
  VS0_1.read (Elt F) (VS0_1.writes (Elt F) VS0_1.junk (runA m c t h).2.2.1)
/-- What a later run leaves in the output tile. -/
def outB (c : Dev nD) (t : Fin cfg0.N) (h : ¬t.val % 4 = 0) (xs0 xs1 : Vec F S128x1024 .bf16) : Vec F S1x1024x1024 .f32 :=
  VO0_10.read (Elt F) (VO0_10.writes (Elt F) VO0_10.junk (runB m c t h xs0 xs1).1)

/-! ## What the output tile and the scratches hold after each point -/

/-- After point `n`: (the output tile, the key scratch, the value scratch). A point that opens a batch computes all
    three; a later one computes the tile from the scratches the point before left and keeps them. -/
def outsAt0 (c : Dev nD) : (n : ℕ) → n < cfg0.N → Vec F S1x1024x1024 .f32 × Vec F S128x1024 .bf16 × Vec F S128x1024 .bf16
  | 0, hn => (outA m c ⟨0, hn⟩ (Nat.zero_mod _), keyA m c ⟨0, hn⟩ (Nat.zero_mod _), valA m c ⟨0, hn⟩ (Nat.zero_mod _))
  | n + 1, hn =>
    if h0 : (n + 1) % 4 = 0 then
      (outA m c ⟨n + 1, hn⟩ h0, keyA m c ⟨n + 1, hn⟩ h0, valA m c ⟨n + 1, hn⟩ h0)
    else
      (outB m c ⟨n + 1, hn⟩ h0 (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (outA m c t h0, keyA m c t h0, valA m c t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt
      = (outB m c t h0 (outsAt0 m c (t.val - 1) (Nat.lt_of_le_of_lt (Nat.sub_le _ _) t.isLt)).2.1 (outsAt0 m c (t.val - 1) (Nat.lt_of_le_of_lt (Nat.sub_le _ _) t.isLt)).2.2,
         (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point both scratches hold anything; afterwards they
    hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 4 = 0
  · rw [outsAt0_A m c t h0]
    unfold outA keyA valA; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 c _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (coverA_s1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 c _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (coverA_s1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _ _ _ _)
  · rw [outsAt0_B m c t h0]
    unfold outB; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%e10, H10⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB_10 c _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Gen

end
-- ==== Proof.KI.Scratch.lean ====
/-
  The padded key (or value) buffer of a batch as the opening point of the batch leaves it: the whole [128, 1024] buffer is
  first cleared, then its first 78 rows are read back and stored again with the first 77 replaced by the batch's
  projected rows.  Read at an entry: rows 0..76 hold the projected rows, every later row holds what the clearing store
  wrote.
-/
import proofs.«156907_j61048665145417_2_alg».proof.Proof.KI.Frame
import Idealize.ShloMosaic.Lib.Pipeline.Value
import Idealize.ShloMosaic.Lib.ValueIdx

set_option maxRecDepth 16384

noncomputable section

namespace Cert.KIValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first 78 rows of the buffer, as a rectangle of it; and the whole buffer. -/
abbrev R78 : Rect S128x1024 := Rect.unit (s := S128x1024) ![0, 0] S78x1024.size inb_S128x1024_S78x1024_0_0
abbrev Rall : Rect S128x1024 := Rect.unit (s := S128x1024) ![0, 0] S128x1024.size inb_S128x1024_S128x1024_0_0

/-- The two stores an opening point makes into a scratch buffer, last first: rows 0..77 re-stored with `p` over rows
    0..76 of what was read back, after the clearing store of `z`. -/
abbrev scratchPieces (v : View sig .tc .vmem S128x1024 .bf16) (p : S77x1024.Idx → EReal) (z : S128x1024.Idx → EReal) :
    List (View.Piece (Elt Ideal) S128x1024 .bf16) :=
  [⟨R78, updateSlice (v.readCov [⟨Rall, z⟩] R78.toLoadRect) p ![0, 0] slices_S78x1024_S77x1024_0_0⟩, ⟨Rall, z⟩]

/-- The clearing store alone covers the buffer, -/
theorem clear_cover (z : S128x1024.Idx → EReal) :
    ∀ y, ∃ pc ∈ ([⟨Rall, z⟩] : List (View.Piece (Elt Ideal) S128x1024 .bf16)), y ∈ pc.1.set :=
  View.cover_of_tiledL _ S128x1024.size (by sl_kernel_rfl)

/-- and so do the two stores together. -/
theorem scratch_cover (v : View sig .tc .vmem S128x1024 .bf16) (p : S77x1024.Idx → EReal) (z : S128x1024.Idx → EReal) :
    ∀ y, ∃ pc ∈ scratchPieces v p z, y ∈ pc.1.set :=
  View.cover_of_tiledL _ S128x1024.size (by sl_kernel_rfl)

theorem scratch_canon (v : View sig .tc .vmem S128x1024 .bf16) (p : S77x1024.Idx → EReal) (z : S128x1024.Idx → EReal)
    (j : Fin 128) (e : Fin 1024) :
    View.canon (scratchPieces v p z) (ix2 j e) = if h : j.val < 77 then p (ix2 ⟨j.val, h⟩ e) else z (ix2 j e) := by
  have hzall : View.canon [(⟨Rall, z⟩ : View.Piece (Elt Ideal) S128x1024 .bf16)] = z := by
    rw [View.canon_unit_zero (S := S128x1024) hz2]
  by_cases hj : j.val < 78
  · have hemb : (ix2 j e : S128x1024.Idx) = R78.emb (ix2 (⟨j.val, hj⟩ : Fin 78) e) := by
      funext a; apply Fin.ext
      match a with
      | ⟨0, _⟩ => show j.val = 0 + 1 * j.val; omega
      | ⟨1, _⟩ => show e.val = 0 + 1 * e.val; omega
    rw [hemb, View.canon_cons_emb]
    unfold updateSlice
    by_cases h77 : j.val < 77
    · rw [dif_pos h77, dif_pos (by
        intro a
        match a with
        | ⟨0, _⟩ => exact ⟨Nat.zero_le _, by show j.val < 0 + 77; omega⟩
        | ⟨1, _⟩ => exact ⟨Nat.zero_le _, by show e.val < 0 + 1024; have := e.isLt; omega⟩)]
      refine congrArg p (funext fun b => Fin.ext ?_)
      match b with
      | ⟨0, _⟩ => show j.val - 0 = j.val; omega
      | ⟨1, _⟩ => show e.val - 0 = e.val; omega
    · rw [dif_neg h77, dif_neg (by
        intro hall
        have := (hall ⟨0, by decide⟩).2
        have h' : j.val < 0 + 77 := this
        omega)]
      rw [View.readCov_eq_canon v _ _ (fun y => clear_cover z _), hzall]
      rfl
  · rw [dif_neg (by omega)]
    have hnot : (ix2 j e : S128x1024.Idx) ∉ R78.set := by
      rw [Rect.mem_set_unit]
      intro hall
      have := (hall ⟨0, by decide⟩).2
      have h' : j.val < 0 + 78 := this
      omega
    have hc := View.canon_cons_of_not_mem (Val := Elt Ideal)
      (⟨R78, updateSlice (v.readCov [⟨Rall, z⟩] R78.toLoadRect) p ![0, 0] slices_S78x1024_S77x1024_0_0⟩ : View.Piece (Elt Ideal) S128x1024 .bf16)
      [⟨Rall, z⟩] hnot
    exact hc.trans (congrFun hzall _)

/-- A load of the whole buffer after those two stores reads their canonical contents. -/
theorem scratch_readCov (v : View sig .tc .vmem S128x1024 .bf16) (p : S77x1024.Idx → EReal) (z : S128x1024.Idx → EReal) :
    v.readCov (scratchPieces v p z) Rall.toLoadRect = View.canon (scratchPieces v p z) := by
  rw [View.readCov_eq_canon_ld v _ _ (scratch_cover v p z)]
  rw [View.ld_unit_zero (S := S128x1024) hz2]

end Cert.KIValue

end
-- ==== Proof.KI.Pieces.lean ====
/-
  What the two runs of the attention body leave, as the body's own arithmetic of what they were handed: the output tile
  is the body's final expression of the point's input blocks and the two scratch buffers as the body reads them; at a
  point that opens a batch the scratch buffers are the cleared buffers with the batch's projected rows stored over their
  first 77 rows.
-/
import proofs.«156907_j61048665145417_2_alg».proof.Proof.KI.Scratch

set_option maxRecDepth 16384

noncomputable section

namespace Cert.KIValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The key scratch after an opening point. -/
theorem keyA_eq (c : Dev nD) (t : Fin cfg0.N) (h : t.val % 4 = 0) :
    keyA m c t h = View.canon (scratchPieces scM0_0.view (k0_pay5 (F := Ideal) (iblk m c 1 t) (iblk m c 4 t) (iblk m c 5 t)) (k0_pay2 (F := Ideal))) := by
  unfold keyA
  rw [View.read_writes_eq_canon _ _ _ (coverA_s0 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x77x768) hz3, View.ld_unit_zero (S := S768x1024) hz2, View.ld_unit_zero (S := S1024) hz1]

/-- The value scratch after an opening point. -/
theorem valA_eq (c : Dev nD) (t : Fin cfg0.N) (h : t.val % 4 = 0) :
    valA m c t h = View.canon (scratchPieces scM0_1.view (k0_pay6 (F := Ideal) (iblk m c 1 t) (iblk m c 6 t) (iblk m c 7 t)) (k0_pay3 (F := Ideal))) := by
  unfold valA
  rw [View.read_writes_eq_canon _ _ _ (coverA_s1 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x77x768) hz3, View.ld_unit_zero (S := S768x1024) hz2, View.ld_unit_zero (S := S1024) hz1]

/-- The output tile after an opening point: the body's expression over the scratches it has just filled. -/
theorem outA_eq (c : Dev nD) (t : Fin cfg0.N) (h : t.val % 4 = 0) :
    outA m c t h = k0_pay1 (F := Ideal) (k0_pay7 (F := Ideal) (iblk m c 0 t) (iblk m c 2 t) (iblk m c 3 t) (keyA m c t h) (valA m c t h)) (iblk m c 8 t) (iblk m c 9 t) := by
  rw [keyA_eq, valA_eq]
  unfold outA
  rw [View.read_writes_eq_canon _ _ _ (coverA_10 c _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x1024x1024) hz3]
  simp only [View.readAt_eq_ld, Memref.IsWhole.read_unread, View.ld_unit_zero (S := S1x1024x1024) hz3, View.ld_unit_zero (S := S1x77x768) hz3, View.ld_unit_zero (S := S1024x1024) hz2, View.ld_unit_zero (S := S768x1024) hz2, View.ld_unit_zero (S := S1024) hz1]
  rw [scratch_readCov, scratch_readCov]

/-- The output tile after a later point of a batch: the same expression over the scratches it found. -/
theorem outB_eq (c : Dev nD) (t : Fin cfg0.N) (h : ¬t.val % 4 = 0) (xs0 xs1 : Vec Ideal S128x1024 .bf16) :
    outB m c t h xs0 xs1 = k0_pay1 (F := Ideal) (k0_pay7 (F := Ideal) (iblk m c 0 t) (iblk m c 2 t) (iblk m c 3 t) xs0 xs1) (iblk m c 8 t) (iblk m c 9 t) := by
  unfold outB
  rw [View.read_writes_eq_canon _ _ _ (coverB_10 c _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x1024x1024) hz3]
  simp only [View.readAt_eq_ld, Memref.IsWhole.read_unread, View.ld_unit_zero (S := S1x1024x1024) hz3, View.ld_unit_zero (S := S128x1024) hz2, View.ld_unit_zero (S := S1024x1024) hz2, View.ld_unit_zero (S := S1024) hz1]
  exact congrArg₂ (fun a b => k0_pay1 (F := Ideal) (k0_pay7 (F := Ideal) (iblk m c 0 t) (iblk m c 2 t) (iblk m c 3 t) a b) (iblk m c 8 t) (iblk m c 9 t))
    ((Memref.isWhole_whole cc0_scratch0).read_unread xs0) ((Memref.isWhole_whole cc0_scratch1).read_unread xs1)

end Cert.KIValue

end
-- ==== Proof.Spec.lean ====
/-
  Cross-attention of one query row against one batch's 77 context rows, written twice as plain formulas on the
  extended reals: once the way the reference computes it (project, take 77 scores, scale them, soft-max, mix the
  values, project out) and once the way the tiled kernel computes it (the scale folded into the query weights and
  bias beforehand; keys and values padded with zero rows to 128; the 51 padding scores replaced by −∞ before the
  soft-max).  Every later module speaks about these two functions only.
-/
import Idealize.ShloMosaic.PureOps.Ideal

noncomputable section

namespace Cert.XAttn

open Idealize.ShloMosaic

/-- The soft-max scale 1/√128 as the single-precision pattern both programs carry. -/
def sC : EReal := Ideal.ofBits .f32 0x3DB504F3#32

/-- An extended real that is an ordinary real number. -/
def IsReal (a : EReal) : Prop := ∃ r : ℝ, a = (r : EReal)

/-- A context row projected: row `j` of `y · W + b`. -/
def proj (yb : Fin 77 → Fin 768 → EReal) (W : Fin 768 → Fin 1024 → EReal) (b : Fin 1024 → EReal)
    (j : Fin 77) (e : Fin 1024) : EReal :=
  (∑ c : Fin 768, yb j c * W c e) + b e

/-- 77 rows padded with zero rows to 128. -/
def pad (P : Fin 77 → Fin 1024 → EReal) (j : Fin 128) (e : Fin 1024) : EReal :=
  if h : j.val < 77 then P ⟨j.val, h⟩ e else 0

/-- The soft-max of a finite family of scores, the maximum subtracted first. -/
def softmax {n : ℕ} (sc : Fin n → EReal) (j : Fin n) : EReal :=
  Ideal.div (Ideal.exp (sc j - (Finset.univ : Finset (Fin n)).fold max ⊥ sc))
    (∑ i : Fin n, Ideal.exp (sc i - (Finset.univ : Finset (Fin n)).fold max ⊥ sc))

/-! ## The reference's row -/

/-- The query row: `x · Wq + bq`. -/
def qRef (x : Fin 1024 → EReal) (Wq : Fin 1024 → Fin 1024 → EReal) (bq : Fin 1024 → EReal) (e : Fin 1024) : EReal :=
  (∑ d : Fin 1024, x d * Wq d e) + bq e

/-- The 77 scaled scores of the row. -/
def scoreRef (s : EReal) (q : Fin 1024 → EReal) (K : Fin 77 → Fin 1024 → EReal) (j : Fin 77) : EReal :=
  (∑ e : Fin 1024, q e * K j e) * s

/-- The attention output of the row, projected out: `(softmax(scores) · V) · Wo + bo`. -/
def finalRef (s : EReal) (x : Fin 1024 → EReal) (yb : Fin 77 → Fin 768 → EReal)
    (Wq : Fin 1024 → Fin 1024 → EReal) (bq : Fin 1024 → EReal)
    (Wk : Fin 768 → Fin 1024 → EReal) (bk : Fin 1024 → EReal)
    (Wv : Fin 768 → Fin 1024 → EReal) (bv : Fin 1024 → EReal)
    (Wo : Fin 1024 → Fin 1024 → EReal) (bo : Fin 1024 → EReal) (f : Fin 1024) : EReal :=
  (∑ e : Fin 1024,
      (∑ j : Fin 77, softmax (scoreRef s (qRef x Wq bq) (proj yb Wk bk)) j * proj yb Wv bv j e) * Wo e f) + bo f

/-! ## The kernel's row -/

/-- The 128 scores of the row against padded keys, the 51 padding columns at −∞. -/
def scoreKer (q : Fin 1024 → EReal) (K : Fin 128 → Fin 1024 → EReal) (j : Fin 128) : EReal :=
  if j.val < 77 then ∑ e : Fin 1024, q e * K j e else ⊥

/-- The kernel's row from a query row `q` and padded keys and values. -/
def finalKer (q : Fin 1024 → EReal) (K V : Fin 128 → Fin 1024 → EReal)
    (Wo : Fin 1024 → Fin 1024 → EReal) (bo : Fin 1024 → EReal) (f : Fin 1024) : EReal :=
  (∑ e : Fin 1024, (∑ j : Fin 128, softmax (scoreKer q K) j * V j e) * Wo e f) + bo f

/-- The kernel's query row: the scale folded into weights and bias. -/
def qKer (s : EReal) (x : Fin 1024 → EReal) (Wq : Fin 1024 → Fin 1024 → EReal) (bq : Fin 1024 → EReal) (e : Fin 1024) : EReal :=
  (∑ d : Fin 1024, x d * (Wq d e * s)) + bq e * s

end Cert.XAttn

end
-- ==== Proof.KI.Blocks.lean ====
/-
  What the attention kernel's region finds in memory, and what each of its input windows holds at a grid point.
  Before the region the program scales the query weights and the query bias by 1/√128 and narrows four weight
  arrays to a shorter format, which on the extended reals changes nothing; every other argument array is as
  launched.  The grid has 16 × 4 = 64 points, point t being tile t % 4 of batch t / 4: the query window's block
  at t is rows 1024 (t % 4) … 1024 (t % 4) + 1023 of batch t / 4, the context window's block is the 77 context
  rows of batch t / 4, and each of the eight weight and bias windows is its whole array at every point.
-/
import proofs.«156907_j61048665145417_2_alg».proof.Proof.KI.Frame
import proofs.«156907_j61048665145417_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KIBlocks

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-! ## The arrays the region finds -/

/-- The scaled query weights: entry (d, e) of the launched weights times the scale. -/
theorem V_v2 (d e : Fin 1024) :
    V m c main_v2 (ix2 d e) = HMul.hMul (α := EReal) (m ((c : Thread nD τ).loc main_arg2) (ix2 d e)) Cert.XAttn.sC := by
  have h : (V m c main_v2 : S1024x1024.Idx → EReal)
      = truncf .bf16 (mulf (m ((c : Thread nD τ).loc main_arg2))
          (broadcastInDim S1024x1024 ![] bcast_S_S1024x1024 (constant (F := Ideal) S_ .f32 0x3DB504F3#32))) bitsLt_bf16_f32 := by
    dsimp only [Gen.V, Gen.hostOps0]; after_results
  refine (congrFun h (ix2 d e)).trans ?_
  rw [truncf_apply, mulf_apply,
    broadcastInDim_apply _ bcast_S_S1024x1024 (constant (F := Ideal) S_ .f32 0x3DB504F3#32) (ix2 d e) ix0 (fun a => a.elim0),
    constant_apply]
  rfl

/-- The scaled query bias: entry e of the launched bias times the scale. -/
theorem V_v4 (e : Fin 1024) :
    V m c main_v4 (ix1 e) = HMul.hMul (α := EReal) (m ((c : Thread nD τ).loc main_arg3) (ix1 e)) Cert.XAttn.sC := by
  have h : (V m c main_v4 : S1024.Idx → EReal)
      = mulf (m ((c : Thread nD τ).loc main_arg3))
          (broadcastInDim S1024 ![] bcast_S_S1024 (constant (F := Ideal) S_ .f32 0x3DB504F3#32)) := by
    dsimp only [Gen.V, Gen.hostOps0]; after_results
  refine (congrFun h (ix1 e)).trans ?_
  rw [mulf_apply,
    broadcastInDim_apply _ bcast_S_S1024 (constant (F := Ideal) S_ .f32 0x3DB504F3#32) (ix1 e) ix0 (fun a => a.elim0),
    constant_apply]
  rfl

/-- The narrowed key weights are the launched key weights. -/
theorem V_v5 : (V m c main_v5 : S768x1024.Idx → EReal) = m ((c : Thread nD τ).loc main_arg4) := by
  dsimp only [Gen.V, Gen.hostOps0]; after_results; rfl

/-- The narrowed value weights are the launched value weights. -/
theorem V_v6 : (V m c main_v6 : S768x1024.Idx → EReal) = m ((c : Thread nD τ).loc main_arg6) := by
  dsimp only [Gen.V, Gen.hostOps0]; after_results; rfl

/-- The narrowed output weights are the launched output weights. -/
theorem V_v7 : (V m c main_v7 : S1024x1024.Idx → EReal) = m ((c : Thread nD τ).loc main_arg8) := by
  dsimp only [Gen.V, Gen.hostOps0]; after_results; rfl

/-! ## The windows' block indices over the grid -/

/-- The grid has 64 points. -/
theorem lt64 (t : Fin cfg0.N) : t.val < 64 := lt_of_lt_of_eq t.isLt N_0

/-- The query window's block index at point t is (t / 4, t % 4, 0). -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The context window's block index at point t is (t / 4, 0, 0). -/
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The eight weight and bias windows stay at block 0. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)

/-! ## Each input window's block at a point, read at an index -/

/-- The query window at point t: row r of the block is row 1024 (t % 4) + r of batch t / 4. -/
theorem iblk0 (t : Fin cfg0.N) (r d : Fin 1024) :
    iblk m c 0 t (ix3 (0 : Fin 1) r d)
      = m ((c : Thread nD τ).loc main_arg0) (ix3 (⟨t.val / 4, by have := lt64 t; omega⟩ : Fin 16)
          (⟨1024 * (t.val % 4) + r.val, by have := r.isLt; omega⟩ : Fin 4096) d) := by
  rw [← V_main_arg0 m c]
  show V m c main_arg0 (((cfg0.win 0).blk t).view.emb (ix3 (0 : Fin 1) r d)) = V m c main_arg0 _
  obtain ⟨e0, e1, e2⟩ := idx0 t
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 1024 + 1 * d.val = d.val; omega

/-- The context window at point t: the 77 context rows of batch t / 4. -/
theorem iblk1 (t : Fin cfg0.N) (j : Fin 77) (k : Fin 768) :
    iblk m c 1 t (ix3 (0 : Fin 1) j k)
      = m ((c : Thread nD τ).loc main_arg1) (ix3 (⟨t.val / 4, by have := lt64 t; omega⟩ : Fin 16) j k) := by
  rw [← V_main_arg1 m c]
  show V m c main_arg1 (((cfg0.win 1).blk t).view.emb (ix3 (0 : Fin 1) j k)) = V m c main_arg1 _
  obtain ⟨e0, e1, e2⟩ := idx1 t
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 77 + 1 * j.val = j.val; omega
  | ⟨2, _⟩ => show win0_1.index t (2 : Fin 3) * 768 + 1 * k.val = k.val; omega

/-- The query-weight window: the launched weights times the scale. -/
theorem iblk2 (t : Fin cfg0.N) (d e : Fin 1024) :
    iblk m c 2 t (ix2 d e) = HMul.hMul (α := EReal) (m ((c : Thread nD τ).loc main_arg2) (ix2 d e)) Cert.XAttn.sC := by
  refine Eq.trans ?_ (V_v2 m c d e)
  show V m c main_v2 (((cfg0.win 2).blk t).view.emb (ix2 d e)) = V m c main_v2 (ix2 d e)
  obtain ⟨e0, e1⟩ := idx2 t
  refine congrArg (V m c main_v2) (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega

/-- The query-bias window: the launched bias times the scale. -/
theorem iblk3 (t : Fin cfg0.N) (e : Fin 1024) :
    iblk m c 3 t (ix1 e) = HMul.hMul (α := EReal) (m ((c : Thread nD τ).loc main_arg3) (ix1 e)) Cert.XAttn.sC := by
  refine Eq.trans ?_ (V_v4 m c e)
  show V m c main_v4 (((cfg0.win 3).blk t).view.emb (ix1 e)) = V m c main_v4 (ix1 e)
  have e0 := idx3 t
  refine congrArg (V m c main_v4) (funext fun a => Fin.ext ?_)
  match a with
  | ⟨0, _⟩ => show win0_3.index t (0 : Fin 1) * 1024 + 1 * e.val = e.val; omega

/-- The key-weight window: the launched key weights. -/
theorem iblk4 (t : Fin cfg0.N) (k : Fin 768) (e : Fin 1024) :
    iblk m c 4 t (ix2 k e) = m ((c : Thread nD τ).loc main_arg4) (ix2 k e) := by
  refine Eq.trans ?_ (congrFun (V_v5 m c) (ix2 k e))
  show V m c main_v5 (((cfg0.win 4).blk t).view.emb (ix2 k e)) = V m c main_v5 (ix2 k e)
  obtain ⟨e0, e1⟩ := idx4 t
  refine congrArg (V m c main_v5) (funext fun a => Fin.ext ?_)
  match a with
  | ⟨0, _⟩ => show win0_4.index t (0 : Fin 2) * 768 + 1 * k.val = k.val; omega
  | ⟨1, _⟩ => show win0_4.index t (1 : Fin 2) * 1024 + 1 * e.val = e.val; omega

/-- The key-bias window: the launched key bias. -/
theorem iblk5 (t : Fin cfg0.N) (e : Fin 1024) :
    iblk m c 5 t (ix1 e) = m ((c : Thread nD τ).loc main_arg5) (ix1 e) := by
  rw [← V_main_arg5 m c]
  show V m c main_arg5 (((cfg0.win 5).blk t).view.emb (ix1 e)) = V m c main_arg5 (ix1 e)
  have e0 := idx5 t
  refine congrArg (V m c main_arg5) (funext fun a => Fin.ext ?_)
  match a with
  | ⟨0, _⟩ => show win0_5.index t (0 : Fin 1) * 1024 + 1 * e.val = e.val; omega

/-- The value-weight window: the launched value weights. -/
theorem iblk6 (t : Fin cfg0.N) (k : Fin 768) (e : Fin 1024) :
    iblk m c 6 t (ix2 k e) = m ((c : Thread nD τ).loc main_arg6) (ix2 k e) := by
  refine Eq.trans ?_ (congrFun (V_v6 m c) (ix2 k e))
  show V m c main_v6 (((cfg0.win 6).blk t).view.emb (ix2 k e)) = V m c main_v6 (ix2 k e)
  obtain ⟨e0, e1⟩ := idx6 t
  refine congrArg (V m c main_v6) (funext fun a => Fin.ext ?_)
  match a with
  | ⟨0, _⟩ => show win0_6.index t (0 : Fin 2) * 768 + 1 * k.val = k.val; omega
  | ⟨1, _⟩ => show win0_6.index t (1 : Fin 2) * 1024 + 1 * e.val = e.val; omega

/-- The value-bias window: the launched value bias. -/
theorem iblk7 (t : Fin cfg0.N) (e : Fin 1024) :
    iblk m c 7 t (ix1 e) = m ((c : Thread nD τ).loc main_arg7) (ix1 e) := by
  rw [← V_main_arg7 m c]
  show V m c main_arg7 (((cfg0.win 7).blk t).view.emb (ix1 e)) = V m c main_arg7 (ix1 e)
  have e0 := idx7 t
  refine congrArg (V m c main_arg7) (funext fun a => Fin.ext ?_)
  match a with
  | ⟨0, _⟩ => show win0_7.index t (0 : Fin 1) * 1024 + 1 * e.val = e.val; omega

/-- The output-weight window: the launched output weights. -/
theorem iblk8 (t : Fin cfg0.N) (e f : Fin 1024) :
    iblk m c 8 t (ix2 e f) = m ((c : Thread nD τ).loc main_arg8) (ix2 e f) := by
  refine Eq.trans ?_ (congrFun (V_v7 m c) (ix2 e f))
  show V m c main_v7 (((cfg0.win 8).blk t).view.emb (ix2 e f)) = V m c main_v7 (ix2 e f)
  obtain ⟨e0, e1⟩ := idx8 t
  refine congrArg (V m c main_v7) (funext fun a => Fin.ext ?_)
  match a with
  | ⟨0, _⟩ => show win0_8.index t (0 : Fin 2) * 1024 + 1 * e.val = e.val; omega
  | ⟨1, _⟩ => show win0_8.index t (1 : Fin 2) * 1024 + 1 * f.val = f.val; omega

/-- The output-bias window: the launched output bias. -/
theorem iblk9 (t : Fin cfg0.N) (f : Fin 1024) :
    iblk m c 9 t (ix1 f) = m ((c : Thread nD τ).loc main_arg9) (ix1 f) := by
  rw [← V_main_arg9 m c]
  show V m c main_arg9 (((cfg0.win 9).blk t).view.emb (ix1 f)) = V m c main_arg9 (ix1 f)
  have e0 := idx9 t
  refine congrArg (V m c main_arg9) (funext fun a => Fin.ext ?_)
  match a with
  | ⟨0, _⟩ => show win0_9.index t (0 : Fin 1) * 1024 + 1 * f.val = f.val; omega

end Cert.KIBlocks

end
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowBlocks.lean ====
/-
  General readings, at an index written by coordinates, of the operations a row-blocked matrix kernel is made
  of: a matrix product into a zero accumulator as the plain sum over the contracted coordinate; a row of
  `64 · 64` entries recast as 64 groups of 64 and back; a per-group value given a trailing unit axis and
  spread over its group; and a group's maximum, on the vector unit and on the host, as one fold of `max`.
-/
import Idealize.ShloMosaic.PureOps.Ideal.Laws
import Idealize.ShloMosaic.Lib.ValueIdx
import Idealize.ShloMosaic.Lib.Pipeline.Value

noncomputable section

namespace Cert.LibRowBlocks

open Idealize.ShloMosaic Idealize.ShloMosaic.ValueIdx

/-- A product of an `[a, k]` by a `[k, b]` matrix, contracting the left operand's columns with the right operand's
    rows into a zero accumulator, is at `(p, c)` the sum over `q` of `l (p, q) · r (q, c)`.  `hl0` and `hr1` say
    that the kept axes carry the output's coordinates; they are read off the record's dimension numbers. -/
theorem matmul_zero_ix2 {a k b : ℕ} {φ₁ φ₂ : FTy}
    (D : DotDims ⟨2, ![a, k]⟩ ⟨2, ![k, b]⟩ ⟨2, ![a, b]⟩)
    (hr : D.contr.rank = 1) (hs : D.contr.size ⟨0, by omega⟩ = k)
    (hlc : D.lhsContracting = [1]) (hrc : D.rhsContracting = [0])
    (hl0 : ∀ j q, (D.lhsIdx j q 0).val = (j 0).val) (hr1 : ∀ j q, (D.rhsIdx j q 1).val = (j 1).val)
    (l : FVec Ideal ⟨2, ![a, k]⟩ φ₁) (r : FVec Ideal ⟨2, ![k, b]⟩ φ₂) (p : Fin a) (c : Fin b) :
    matmul D none l r (constant (F := Ideal) ⟨2, ![a, b]⟩ .f32 0x00000000#32) (ix2 p c)
      = ∑ q : Fin k, l (ix2 p q) * r (ix2 q c) := by
  simp only [matmul]
  rw [Ideal.matmul_constant_zero_apply, ← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun x => Fin.ext (by
    match x with
    | ⟨0, _⟩ => exact hl0 _ _
    | ⟨1, _⟩ => exact (D.lhsIdx_val_of_single hlc _ _).trans hq)
  have er : D.rhsIdx (ix2 p c) ((contrEquiv1 D k hr hs).symm q) = ix2 q c := funext fun x => Fin.ext (by
    match x with
    | ⟨0, _⟩ => exact (D.rhsIdx_val_of_single hrc _ _).trans hq
    | ⟨1, _⟩ => exact hr1 _ _)
  rw [el, er]

/-! ## A row of 4096 entries as 64 groups of 64 -/

/-- Entry `j` of group `g` in a row of 64 groups of 64 entries. -/
def at64 (g j : Fin 64) : Fin 4096 := ⟨g.val * 64 + j.val, by have := g.isLt; have := j.isLt; omega⟩

/-- The group an entry of such a row lies in. -/
def grp64 (k : Fin 4096) : Fin 64 := ⟨k.val / 64, by have := k.isLt; omega⟩

/-- Its place inside the group. -/
def pos64 (k : Fin 4096) : Fin 64 := ⟨k.val % 64, by omega⟩

theorem at64_grp_pos (k : Fin 4096) : at64 (grp64 k) (pos64 k) = k :=
  Fin.ext (by show k.val / 64 * 64 + k.val % 64 = k.val; omega)

theorem grp64_at64 (g j : Fin 64) : grp64 (at64 g j) = g :=
  Fin.ext (by show (g.val * 64 + j.val) / 64 = g.val; have := j.isLt; omega)

theorem pos64_at64 (g j : Fin 64) : pos64 (at64 g j) = j :=
  Fin.ext (by show (g.val * 64 + j.val) % 64 = j.val; have := j.isLt; omega)

variable {α : Type}

/-- An `[a, 4096]` array recast as `[a, 64, 64]` reads, at `(p, g, j)`, the operand at `(p, 64 g + j)`. -/
theorem cast_row_to_groups {a : ℕ} (x : (⟨2, ![a, 4096]⟩ : Shape).Idx → α)
    (h : (⟨2, ![a, 4096]⟩ : Shape).ShapeCasts ⟨3, ![a, 64, 64]⟩) (p : Fin a) (g j : Fin 64) (k : Fin 4096)
    (hk : k.val = g.val * 64 + j.val) :
    shapeCast ⟨3, ![a, 64, 64]⟩ x h (ix3 p g j) = x (ix2 p k) :=
  shapeCast_apply x h _ _ (by
    rw [Shape.rowMajor_val_two, Shape.rowMajor_val_three]
    show p.val * 4096 + k.val = (p.val * 64 + g.val) * 64 + j.val
    omega)

/-- An `[a, 64, 64]` array recast as `[a, 4096]` reads, at `(p, k)`, the operand at `(p, k / 64, k % 64)`. -/
theorem cast_groups_to_row {a : ℕ} (x : (⟨3, ![a, 64, 64]⟩ : Shape).Idx → α)
    (h : (⟨3, ![a, 64, 64]⟩ : Shape).ShapeCasts ⟨2, ![a, 4096]⟩) (p : Fin a) (k : Fin 4096) (g j : Fin 64)
    (hk : k.val = g.val * 64 + j.val) :
    shapeCast ⟨2, ![a, 4096]⟩ x h (ix2 p k) = x (ix3 p g j) :=
  shapeCast_apply x h _ _ (by
    rw [Shape.rowMajor_val_two, Shape.rowMajor_val_three]
    show (p.val * 64 + g.val) * 64 + j.val = p.val * 4096 + k.val
    omega)

/-- An `[a, b]` array given a trailing unit axis reads, at `(p, g, u)`, the operand at `(p, g)`. -/
theorem cast_trailing_unit {a b : ℕ} (x : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ x h (ix3 p g u) = x (ix2 p g) :=
  shapeCast_apply x h _ _ (by
    rw [Shape.rowMajor_val_two, Shape.rowMajor_val_three]
    show p.val * b + g.val = (p.val * b + g.val) * 1 + u.val
    have := u.isLt
    omega)

/-- An `[a, b, 1]` array spread along its last axis reads, at `(p, g, j)`, the operand at `(p, g, 0)`. -/
theorem spread_last_axis {a b c : ℕ} (x : (⟨3, ![a, b, 1]⟩ : Shape).Idx → α)
    (h : (⟨3, ![a, b, 1]⟩ : Shape).Broadcasts ⟨3, ![a, b, c]⟩) (p : Fin a) (g : Fin b) (j : Fin c) :
    broadcastTo ⟨3, ![a, b, c]⟩ x h (ix3 p g j) = x (ix3 p g (0 : Fin 1)) := by
  refine broadcastTo_apply x h (ix3 p g j) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The recast to groups at `(p, g, j)`, with the entry named. -/
theorem cast_row_to_groups_at {a : ℕ} (x : (⟨2, ![a, 4096]⟩ : Shape).Idx → α)
    (h : (⟨2, ![a, 4096]⟩ : Shape).ShapeCasts ⟨3, ![a, 64, 64]⟩) (p : Fin a) (g j : Fin 64) :
    shapeCast ⟨3, ![a, 64, 64]⟩ x h (ix3 p g j) = x (ix2 p (at64 g j)) :=
  cast_row_to_groups x h p g j (at64 g j) rfl

/-- The recast back to a row at `(p, k)`, with the group and the place named. -/
theorem cast_groups_to_row_at {a : ℕ} (x : (⟨3, ![a, 64, 64]⟩ : Shape).Idx → α)
    (h : (⟨3, ![a, 64, 64]⟩ : Shape).ShapeCasts ⟨2, ![a, 4096]⟩) (p : Fin a) (k : Fin 4096) :
    shapeCast ⟨2, ![a, 4096]⟩ x h (ix2 p k) = x (ix3 p (grp64 k) (pos64 k)) :=
  cast_groups_to_row x h p k (grp64 k) (pos64 k) (by show k.val = k.val / 64 * 64 + k.val % 64; omega)

/-! ## A group's maximum -/

/-- On the vector unit: the maximum over the last axis of an `[a, 64, 64]` array, from −∞, is at `(p, g)` the fold
    of `max` over the 64 entries of group `g` of row `p`. -/
theorem group_max_vec {a : ℕ} (src : FVec Ideal ⟨3, ![a, 64, 64]⟩ .f32)
    (h : (⟨3, ![a, 64, 64]⟩ : Shape).Reduces [2] ⟨2, ![a, 64]⟩) (hφ : FKind.Formats .f32)
    (hacc : (0xFF800000#32 : BitVec 32) = FKind.maximumf.neutral .f32 hφ) (p : Fin a) (g : Fin 64) :
    multiReduction .maximumf [2] ⟨2, ![a, 64]⟩ src 0xFF800000#32 h hφ hacc (ix2 p g)
      = (Finset.univ : Finset (Fin 64)).fold max (Ideal.ofBits .f32 0xFF800000#32) (fun j => src (ix3 p g j)) := by
  refine (Ideal.multiReduction_maximumf_single src _ h hφ hacc (ix2 p g)).trans ?_
  show (Finset.univ : Finset (Fin 64)).fold max (Ideal.ofBits .f32 0xFF800000#32) (fun j => src (h.lift (ix2 p g) j)) = _
  have e : ∀ j : Fin 64, h.lift (ix2 p g) j = ix3 p g j := fun j => funext fun c => Fin.ext (by
    match c with
    | ⟨0, _⟩ => rfl
    | ⟨1, _⟩ => rfl
    | ⟨2, _⟩ => rfl)
  exact congrArg (fun f : Fin 64 → EReal => (Finset.univ : Finset (Fin 64)).fold max (Ideal.ofBits .f32 0xFF800000#32) f)
    (funext fun j => congrArg src (e j))

/-- On the host: the same maximum as a one-operand reduce from a rank-zero initial value. -/
theorem group_max_host {a : ℕ} (x : (⟨3, ![a, 64, 64]⟩ : Shape).Idx → EReal) (init : (⟨0, ![]⟩ : Shape).Idx → EReal)
    (h' : (⟨3, ![a, 64, 64]⟩ : Shape).ReducesTo [2] ⟨2, ![a, 64]⟩)
    (h : (⟨3, ![a, 64, 64]⟩ : Shape).Reduces [2] ⟨2, ![a, 64]⟩) (hu : 0 < (⟨0, ![]⟩ : Shape).numel)
    (p : Fin a) (g : Fin 64) :
    Host.reduce (FloatOps.maximumf (F := Ideal) (φ := .f32)) x init h' hu (ix2 p g)
      = (Finset.univ : Finset (Fin 64)).fold max (init ix0) (fun j => x (ix3 p g j)) := by
  refine (Host.reduce_eq_fold_single (FloatOps.maximumf (F := Ideal) (φ := .f32)) x init h' h hu (ix2 p g)).trans ?_
  show (Finset.univ : Finset (Fin 64)).fold max (init (Shape.Idx.first hu)) (fun j => x (h.lift (ix2 p g) j)) = _
  have e : ∀ j : Fin 64, h.lift (ix2 p g) j = ix3 p g j := fun j => funext fun c => Fin.ext (by
    match c with
    | ⟨0, _⟩ => rfl
    | ⟨1, _⟩ => rfl
    | ⟨2, _⟩ => rfl)
  rw [eq_ix0 (Shape.Idx.first hu)]
  exact congrArg (fun f : Fin 64 → EReal => (Finset.univ : Finset (Fin 64)).fold max (init ix0) f)
    (funext fun j => congrArg x (e j))

end Cert.LibRowBlocks

end
-- ==== Proof.KerSpec.lean ====
/-
  The kernel body's arithmetic read index by index: each stored block of the tiled cross-attention kernel, at an
  index written by coordinates, is the plain formula of the row it holds — the projected context rows, the zero
  padding, and the output row as the soft-max mix of padded values under the −∞ mask, projected out.
-/
import proofs.«156907_j61048665145417_2_alg».proof.Proof.Spec
import proofs.«156907_j61048665145417_2_alg».proof.Proof.Gen.KernelIdeal.Skeleton
import proofs.«156907_j61048665145417_2_alg».proof.Proof.LibKeepdims
import proofs.«156907_j61048665145417_2_alg».proof.Proof.LibRowBlocks
import Idealize.ShloMosaic.PureOps.IdealRules
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

namespace Cert.KerSpec

open Cert.KernelIdeal Cert.KernelIdeal.Gen Idealize.ShloMosaic Idealize.ShloMosaic.ValueIdx

/-! ## Matrix products into a zero accumulator -/

/-- A product of an `[a, k]` by a `[b, k]` matrix, contracting the columns of both operands into a zero
    accumulator, is at `(p, c)` the sum over `q` of `l (p, q) · r (c, q)`. -/
theorem matmul_zero_ix2_t {a k b : ℕ} {φ₁ φ₂ : FTy}
    (D : DotDims ⟨2, ![a, k]⟩ ⟨2, ![b, k]⟩ ⟨2, ![a, b]⟩)
    (hr : D.contr.rank = 1) (hs : D.contr.size ⟨0, by omega⟩ = k)
    (hlc : D.lhsContracting = [1]) (hrc : D.rhsContracting = [1])
    (hl0 : ∀ j q, (D.lhsIdx j q 0).val = (j 0).val) (hr0 : ∀ j q, (D.rhsIdx j q 0).val = (j 1).val)
    (l : FVec Ideal ⟨2, ![a, k]⟩ φ₁) (r : FVec Ideal ⟨2, ![b, k]⟩ φ₂) (p : Fin a) (c : Fin b) :
    matmul D none l r (constant (F := Ideal) ⟨2, ![a, b]⟩ .f32 0x00000000#32) (ix2 p c)
      = ∑ q : Fin k, l (ix2 p q) * r (ix2 c q) := by
  simp only [matmul]
  rw [Ideal.matmul_constant_zero_apply, ← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun x => Fin.ext (by
    match x with
    | ⟨0, _⟩ => exact hl0 _ _
    | ⟨1, _⟩ => exact (D.lhsIdx_val_of_single hlc _ _).trans hq)
  have er : D.rhsIdx (ix2 p c) ((contrEquiv1 D k hr hs).symm q) = ix2 c q := funext fun x => Fin.ext (by
    match x with
    | ⟨0, _⟩ => exact hr0 _ _
    | ⟨1, _⟩ => exact (D.rhsIdx_val_of_single hrc _ _).trans hq)
  rw [el, er]

/-- The context projection's product: `[77, 768] · [768, 1024]`. -/
theorem mm_ctx (l : FVec Ideal S77x768 .bf16) (r : FVec Ideal S768x1024 .bf16) (p : Fin 77) (c : Fin 1024) :
    matmul dot_S77x768_S768x1024_S77x1024_1_0_0_1_n_n none l r (constant (F := Ideal) S77x1024 .f32 0x00000000#32) (ix2 p c)
      = ∑ q : Fin 768, l (ix2 p q) * r (ix2 q c) :=
  Cert.LibRowBlocks.matmul_zero_ix2 dot_S77x768_S768x1024_S77x1024_1_0_0_1_n_n rfl rfl rfl rfl
    (fun j q => by simp [DotDims.lhsIdx, dot_S77x768_S768x1024_S77x1024_1_0_0_1_n_n]; rfl)
    (fun j q => by simp [DotDims.rhsIdx, dot_S77x768_S768x1024_S77x1024_1_0_0_1_n_n]; rfl) l r p c

/-- A square product: `[1024, 1024] · [1024, 1024]`. -/
theorem mm_sq (l r : FVec Ideal S1024x1024 .bf16) (p c : Fin 1024) :
    matmul dot_S1024x1024_S1024x1024_S1024x1024_1_0_0_1_n_n none l r (constant (F := Ideal) S1024x1024 .f32 0x00000000#32) (ix2 p c)
      = ∑ q : Fin 1024, l (ix2 p q) * r (ix2 q c) :=
  Cert.LibRowBlocks.matmul_zero_ix2 dot_S1024x1024_S1024x1024_S1024x1024_1_0_0_1_n_n rfl rfl rfl rfl
    (fun j q => by simp [DotDims.lhsIdx, dot_S1024x1024_S1024x1024_S1024x1024_1_0_0_1_n_n]; rfl)
    (fun j q => by simp [DotDims.rhsIdx, dot_S1024x1024_S1024x1024_S1024x1024_1_0_0_1_n_n]; rfl) l r p c

/-- The weights times the values: `[1024, 128] · [128, 1024]`. -/
theorem mm_mix (l : FVec Ideal S1024x128 .bf16) (r : FVec Ideal S128x1024 .bf16) (p c : Fin 1024) :
    matmul dot_S1024x128_S128x1024_S1024x1024_1_0_0_1_n_n none l r (constant (F := Ideal) S1024x1024 .f32 0x00000000#32) (ix2 p c)
      = ∑ q : Fin 128, l (ix2 p q) * r (ix2 q c) :=
  Cert.LibRowBlocks.matmul_zero_ix2 dot_S1024x128_S128x1024_S1024x1024_1_0_0_1_n_n rfl rfl rfl rfl
    (fun j q => by simp [DotDims.lhsIdx, dot_S1024x128_S128x1024_S1024x1024_1_0_0_1_n_n]; rfl)
    (fun j q => by simp [DotDims.rhsIdx, dot_S1024x128_S128x1024_S1024x1024_1_0_0_1_n_n]; rfl) l r p c

/-- The scores' product: queries `[1024, 1024]` against keys `[128, 1024]`, both contracted on their columns. -/
theorem mm_scores (l : FVec Ideal S1024x1024 .bf16) (r : FVec Ideal S128x1024 .bf16) (p : Fin 1024) (c : Fin 128) :
    matmul dot_S1024x1024_S128x1024_S1024x128_1_1_0_0_n_n none l r (constant (F := Ideal) S1024x128 .f32 0x00000000#32) (ix2 p c)
      = ∑ q : Fin 1024, l (ix2 p q) * r (ix2 c q) :=
  matmul_zero_ix2_t dot_S1024x1024_S128x1024_S1024x128_1_1_0_0_n_n rfl rfl rfl rfl
    (fun j q => by simp [DotDims.lhsIdx, dot_S1024x1024_S128x1024_S1024x128_1_1_0_0_n_n]; rfl)
    (fun j q => by simp [DotDims.rhsIdx, dot_S1024x1024_S128x1024_S1024x128_1_1_0_0_n_n]; rfl) l r p c

/-! ## The bias row and the zero blocks -/

/-- A bias vector `[b]` cast to one row `[1, b]` and repeated down `a` rows reads, at `(p, c)`, the bias at `c`. -/
theorem bias_row {a b : ℕ} (v : (⟨1, ![b]⟩ : Shape).Idx → EReal) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ v h) h' (ix2 p c) = v (ix1 c) :=
  (broadcastTo_1b_ab_apply _ h' p c).trans (shapeCast_a_1a_apply v h 0 c)

/-- The bf16 pattern of zero is the extended real zero. -/
theorem bf16_zero : Ideal.ofBits .bf16 0x0000#16 = 0 := by simp [Ideal.ofBits, Ideal.ieee]

/-- The first zero block: zero at every index. -/
theorem pay2_apply (y : S128x1024.Idx) : k0_pay2 (F := Ideal) y = 0 := by
  unfold k0_pay2
  rw [shapeCast_self]
  exact bf16_zero

/-- The second zero block: zero at every index. -/
theorem pay3_apply (y : S128x1024.Idx) : k0_pay3 (F := Ideal) y = 0 := by
  unfold k0_pay3
  rw [shapeCast_self]
  exact bf16_zero

/-! ## The context rows projected -/

/-- The context block with its unit axis dropped: entry `(j, c)` of the one batch. -/
theorem pay4_apply (v53 : Vec Ideal S1x77x768 .f32) (j : Fin 77) (c : Fin 768) :
    k0_pay4 (F := Ideal) v53 (ix2 j c) = v53 (ix3 (0 : Fin 1) j c) := by
  unfold k0_pay4
  exact shapeCast_1ab_ab_apply v53 _ j c

/-- A projection of the context rows: `(y · W + b) (j, e)`. -/
theorem ctx_proj (v53 : Vec Ideal S1x77x768 .f32) (w : FVec Ideal S768x1024 .bf16) (b : FVec Ideal S1024 .f32)
    (j : Fin 77) (e : Fin 1024) :
    addf (matmul dot_S77x768_S768x1024_S77x1024_1_0_0_1_n_n none (k0_pay4 (F := Ideal) v53) w
        (constant (F := Ideal) S77x1024 .f32 0x00000000#32))
      (broadcastTo S77x1024 (shapeCast S1x1024 b shapeCasts_S1024_S1x1024) broadcasts_S1x1024_S77x1024) (ix2 j e)
      = Cert.XAttn.proj (fun j c => v53 (ix3 (0 : Fin 1) j c)) (fun c e => w (ix2 c e)) (fun e => b (ix1 e)) j e := by
  rw [addf_apply, mm_ctx, bias_row]
  unfold Cert.XAttn.proj
  simp only [pay4_apply]

/-- The keys' rows: the context projected by the key weights and bias. -/
theorem pay5_apply (v53 : Vec Ideal S1x77x768 .f32) (v56 : Vec Ideal S768x1024 .bf16) (v59 : Vec Ideal S1024 .f32)
    (j : Fin 77) (e : Fin 1024) :
    k0_pay5 (F := Ideal) v53 v56 v59 (ix2 j e)
      = Cert.XAttn.proj (fun j c => v53 (ix3 (0 : Fin 1) j c)) (fun c e => v56 (ix2 c e)) (fun e => v59 (ix1 e)) j e := by
  unfold k0_pay5
  rw [shapeCast_self, shapeCast_self]
  exact ctx_proj v53 v56 v59 j e

/-- The values' rows: the context projected by the value weights and bias. -/
theorem pay6_apply (v53 : Vec Ideal S1x77x768 .f32) (v63 : Vec Ideal S768x1024 .bf16) (v66 : Vec Ideal S1024 .f32)
    (j : Fin 77) (e : Fin 1024) :
    k0_pay6 (F := Ideal) v53 v63 v66 (ix2 j e)
      = Cert.XAttn.proj (fun j c => v53 (ix3 (0 : Fin 1) j c)) (fun c e => v63 (ix2 c e)) (fun e => v66 (ix1 e)) j e := by
  unfold k0_pay6
  rw [shapeCast_self, shapeCast_self]
  exact ctx_proj v53 v63 v66 j e

/-! ## The mask -/

/-- A column number below 128, as a 32-bit word, reads signed as itself. -/
theorem toInt_col (n : ℕ) (h : n < 128) : (BitVec.ofNat 32 n).toInt = (n : Int) := by
  have h1 : (BitVec.ofNat 32 n).toNat = n := by rw [BitVec.toNat_ofNat]; omega
  rw [BitVec.toInt_eq_toNat_of_lt (by rw [h1]; omega), h1]

/-- The mask at `(p, c)`: column `c` is one of the first 77. -/
theorem mask_apply (h : S1024x128.Iotas .tc 32 [1]) (p : Fin 1024) (c : Fin 128) :
    cmpi .slt (iota .tc S1024x128 32 [1] h) (broadcast S1024x128 77#32) (ix2 p c) = 1#1 ↔ c.val < 77 := by
  show IntOp.cmpi .slt (iota .tc S1024x128 32 [1] h (ix2 p c)) (77#32) = 1#1 ↔ _
  rw [iota_single_apply, IntOp.cmpi_slt]
  show (BitVec.ofNat 32 c.val).toInt < (77#32).toInt ↔ _
  rw [toInt_col c.val c.isLt, show (77#32 : BitVec 32).toInt = 77 by decide]
  omega

/-- The masking constant is −∞. -/
theorem neg_big : Named.named (F := Ideal) κ "neg_big" (φ := .f32) 0xFF333332#32 = ⊥ :=
  IdealRules.named_const.ideal_named_scalar _ _ _ _ rfl

/-- The masked scores at `(p, c)`: the score on the first 77 columns, −∞ on the rest. -/
theorem masked_apply (h : S1024x128.Iotas .tc 32 [1]) (sc : FVec Ideal S1024x128 .f32) (p : Fin 1024) (c : Fin 128) :
    select (cmpi .slt (iota .tc S1024x128 32 [1] h) (broadcast S1024x128 77#32)) sc
        (broadcast S1024x128 (Named.named (F := Ideal) κ "neg_big" (φ := .f32) 0xFF333332#32)) (ix2 p c)
      = if c.val < 77 then sc (ix2 p c) else ⊥ := by
  rw [select_apply, broadcast_apply, neg_big]
  by_cases hc : c.val < 77
  · rw [if_pos hc, (mask_apply h p c).2 hc, select_one]
  · rw [if_neg hc, eq_zero_of_ne_one (mt (mask_apply h p c).1 hc), select_zero]

/-! ## Row statistics -/

/-- The reducing lift of row `p` at column `k` is the index `(p, k)`. -/
theorem lift_row (h : S1024x128.Reduces [1] S1024) (p : Fin 1024) (k : Fin 128) : h.lift (ix1 p) k = ix2 p k :=
  funext fun c => Fin.ext (by
    match c with
    | ⟨0, _⟩ => rfl
    | ⟨1, _⟩ => rfl)

/-- The row maximum from −∞: the fold of `max` over the 128 entries of row `p`. -/
theorem row_max (src : FVec Ideal S1024x128 .f32) (h : S1024x128.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p)
      = (Finset.univ : Finset (Fin 128)).fold max ⊥ (fun k => src (ix2 p k)) := by
  refine (Ideal.multiReduction_maximumf_single src _ h hφ hacc (ix1 p)).trans ?_
  show (Finset.univ : Finset (Fin 128)).fold max (Ideal.ofBits .f32 0xFF800000#32) (fun k => src (h.lift (ix1 p) k)) = _
  have hb : Ideal.ofBits .f32 0xFF800000#32 = ⊥ := by simp [Ideal.ofBits, Ideal.ieee]
  rw [hb]
  exact congrArg (fun f : Fin 128 → EReal => (Finset.univ : Finset (Fin 128)).fold max ⊥ f)
    (funext fun k => congrArg src (lift_row h p k))

/-- The row sum: the sum of the 128 entries of row `p`. -/
theorem row_sum (src : FVec Ideal S1024x128 .f32) (h : S1024x128.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 128, src (ix2 p k) := by
  refine (Ideal.multiReduction_add_single src _ h hφ hacc (ix1 p)).trans ?_
  show ∑ k : Fin 128, src (h.lift (ix1 p) k) = _
  exact Finset.sum_congr rfl fun k _ => congrArg src (lift_row h p k)

/-- A row statistic kept as a column and spread over the row reads, at `(p, c)`, the statistic of row `p`. -/
theorem keep_col (v : FVec Ideal S1024 .f32) (h : S1024.ShapeCasts S1024x1) (h' : S1024x1.Broadcasts S1024x128)
    (p : Fin 1024) (c : Fin 128) :
    broadcastTo S1024x128 (shapeCast S1024x1 v h) h' (ix2 p c) = v (ix1 p) :=
  (Cert.LibKeepdims.broadcastTo_a1_ab_apply _ h' p c).trans (Cert.LibKeepdims.shapeCast_a_a1_apply v h p 0)

/-- The exponential at an index. -/
theorem exp_apply {s : Shape} {φ : FTy} (a : FVec Ideal s φ) (i : s.Idx) : exp a i = Ideal.exp (a i) := rfl

/-! ## The soft-max of a row -/

/-- The rows' soft-max: each row shifted by its maximum, exponentiated and divided by its sum is, at `(p, c)`,
    the soft-max of row `p` at `c`. -/
theorem softmax_rows (M : FVec Ideal S1024x128 .f32) (hφ₁ : FKind.Formats .f32)
    (hacc₁ : (0xFF800000#32 : BitVec 32) = FKind.maximumf.neutral .f32 hφ₁) (hφ₂ : FKind.Formats .f32)
    (hacc₂ : (0x00000000#32 : BitVec 32) = FKind.add.neutral .f32 hφ₂) (p : Fin 1024) (c : Fin 128) :
    divf
        (exp (subf M (broadcastTo S1024x128 (shapeCast S1024x1
          (multiReduction .maximumf [1] S1024 M 0xFF800000#32 reduces_S1024x128_S1024 hφ₁ hacc₁)
          shapeCasts_S1024_S1024x1) broadcasts_S1024x1_S1024x128)))
        (broadcastTo S1024x128 (shapeCast S1024x1
          (multiReduction .add [1] S1024
            (exp (subf M (broadcastTo S1024x128 (shapeCast S1024x1
              (multiReduction .maximumf [1] S1024 M 0xFF800000#32 reduces_S1024x128_S1024 hφ₁ hacc₁)
              shapeCasts_S1024_S1024x1) broadcasts_S1024x1_S1024x128)))
            0x00000000#32 reduces_S1024x128_S1024 hφ₂ hacc₂)
          shapeCasts_S1024_S1024x1) broadcasts_S1024x1_S1024x128) (ix2 p c)
      = Cert.XAttn.softmax (fun k => M (ix2 p k)) c := by
  have hE : ∀ k : Fin 128,
      exp (subf M (broadcastTo S1024x128 (shapeCast S1024x1
          (multiReduction .maximumf [1] S1024 M 0xFF800000#32 reduces_S1024x128_S1024 hφ₁ hacc₁)
          shapeCasts_S1024_S1024x1) broadcasts_S1024x1_S1024x128)) (ix2 p k)
        = Ideal.exp (M (ix2 p k) - (Finset.univ : Finset (Fin 128)).fold max ⊥ (fun k => M (ix2 p k))) := fun k => by
    rw [exp_apply, subf_apply, keep_col, row_max]
  rw [divf_apply, keep_col, row_sum, hE c]
  unfold Cert.XAttn.softmax
  exact congrArg (Ideal.div _) (Finset.sum_congr rfl fun k _ => hE k)

/-! ## The query rows, the attention rows and the output rows -/

/-- The query rows: `(x · Wq + bq) (r, e)`. -/
theorem q_apply (v3 : Vec Ideal S1x1024x1024 .f32) (v6 : FVec Ideal S1024x1024 .bf16) (v9 : FVec Ideal S1024 .f32)
    (r e : Fin 1024) :
    truncf .bf16 (addf (matmul dot_S1024x1024_S1024x1024_S1024x1024_1_0_0_1_n_n none
        (truncf .bf16 (shapeCast S1024x1024 v3 shapeCasts_S1x1024x1024_S1024x1024) bitsLt_bf16_f32)
        (shapeCast S1024x1024 v6 shapeCasts_S1024x1024_S1024x1024) (constant (F := Ideal) S1024x1024 .f32 0x00000000#32))
      (broadcastTo S1024x1024 (shapeCast S1x1024 (shapeCast S1024 v9 shapeCasts_S1024_S1024) shapeCasts_S1024_S1x1024)
        broadcasts_S1x1024_S1024x1024)) bitsLt_bf16_f32 (ix2 r e)
      = (∑ d : Fin 1024, v3 (ix3 (0 : Fin 1) r d) * v6 (ix2 d e)) + v9 (ix1 e) := by
  rw [truncf_apply, addf_apply, mm_sq, bias_row, shapeCast_self, shapeCast_self]
  refine congrArg (· + v9 (ix1 e)) (Finset.sum_congr rfl fun d _ => congrArg (· * v6 (ix2 d e)) ?_)
  rw [truncf_apply]
  exact shapeCast_1ab_ab_apply v3 _ r d

/-- The attention rows: the soft-max weights of row `r` against the padded keys, mixing the padded values. -/
theorem pay7_apply (v3 : Vec Ideal S1x1024x1024 .f32) (v6 : Vec Ideal S1024x1024 .bf16) (v9 : Vec Ideal S1024 .f32)
    (v15 v32 : Vec Ideal S128x1024 .bf16) (r e : Fin 1024) :
    k0_pay7 (F := Ideal) v3 v6 v9 v15 v32 (ix2 r e)
      = ∑ j : Fin 128,
          Cert.XAttn.softmax (Cert.XAttn.scoreKer
            (fun e => (∑ d : Fin 1024, v3 (ix3 (0 : Fin 1) r d) * v6 (ix2 d e)) + v9 (ix1 e))
            (fun j e => v15 (ix2 j e))) j * v32 (ix2 j e) := by
  unfold k0_pay7
  rw [truncf_apply, mm_mix]
  refine Finset.sum_congr rfl fun j _ => congrArg (· * v32 (ix2 j e)) ?_
  rw [truncf_apply]
  refine (softmax_rows _ _ _ _ _ r j).trans ?_
  refine congrArg (fun sc => Cert.XAttn.softmax sc j) (funext fun k => ?_)
  refine (masked_apply _ _ r k).trans ?_
  unfold Cert.XAttn.scoreKer
  refine if_congr Iff.rfl ?_ rfl
  rw [mm_scores]
  exact Finset.sum_congr rfl fun e' _ => congrArg (· * v15 (ix2 k e')) (q_apply v3 v6 v9 r e')

/-- The output rows: the attention rows projected out, `(a · Wo + bo) (r, f)`. -/
theorem out_apply (v3 : Vec Ideal S1x1024x1024 .f32) (v6 : Vec Ideal S1024x1024 .bf16) (v9 : Vec Ideal S1024 .f32)
    (v15 v32 : Vec Ideal S128x1024 .bf16) (v35 : Vec Ideal S1024x1024 .bf16) (v38 : Vec Ideal S1024 .f32)
    (r f : Fin 1024) :
    k0_pay1 (F := Ideal) (k0_pay7 v3 v6 v9 v15 v32) v35 v38 (ix3 (0 : Fin 1) r f)
      = Cert.XAttn.finalKer (fun e => (∑ d : Fin 1024, v3 (ix3 (0 : Fin 1) r d) * v6 (ix2 d e)) + v9 (ix1 e))
          (fun j e => v15 (ix2 j e)) (fun j e => v32 (ix2 j e)) (fun e f => v35 (ix2 e f)) (fun f => v38 (ix1 f)) f := by
  unfold k0_pay1
  rw [shapeCast_ab_1ab_apply, addf_apply, mm_sq, bias_row, shapeCast_self]
  unfold Cert.XAttn.finalKer
  exact congrArg (· + v38 (ix1 f)) (Finset.sum_congr rfl fun e _ =>
    congrArg (· * v35 (ix2 e f)) (pay7_apply v3 v6 v9 v15 v32 r e))

end Cert.KerSpec

end
-- ==== Proof.KI.Points.lean ====
/-
  What the attention kernel has computed after each of its 64 grid points, in terms of the argument arrays.  Point `t`
  works on batch `t / 4` and on rows `1024 · (t mod 4) … + 1023` of that batch.  After every point the two scratch
  buffers hold the batch's 77 projected key (value) rows followed by 51 zero rows — the opening point of a batch writes
  them, the three later points keep them —, and the output tile holds, row by row, the kernel's attention formula of
  that row of `x`, the scaled query weights, and those padded keys and values.
-/
import proofs.«156907_j61048665145417_2_alg».proof.Proof.KI.Pieces
import proofs.«156907_j61048665145417_2_alg».proof.Proof.KI.Blocks
import proofs.«156907_j61048665145417_2_alg».proof.Proof.KerSpec

set_option maxRecDepth 16384

noncomputable section

namespace Cert.KIValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.XAttn

/-! ## The argument arrays of a core, as plain arrays of extended reals -/

abbrev A0 (c : Dev nD) : S16x4096x1024.Idx → EReal := m ((c : Thread nD τ).loc main_arg0)
abbrev A1 (c : Dev nD) : S16x77x768.Idx → EReal := m ((c : Thread nD τ).loc main_arg1)
abbrev A2 (c : Dev nD) : S1024x1024.Idx → EReal := m ((c : Thread nD τ).loc main_arg2)
abbrev A3 (c : Dev nD) : S1024.Idx → EReal := m ((c : Thread nD τ).loc main_arg3)
abbrev A4 (c : Dev nD) : S768x1024.Idx → EReal := m ((c : Thread nD τ).loc main_arg4)
abbrev A5 (c : Dev nD) : S1024.Idx → EReal := m ((c : Thread nD τ).loc main_arg5)
abbrev A6 (c : Dev nD) : S768x1024.Idx → EReal := m ((c : Thread nD τ).loc main_arg6)
abbrev A7 (c : Dev nD) : S1024.Idx → EReal := m ((c : Thread nD τ).loc main_arg7)
abbrev A8 (c : Dev nD) : S1024x1024.Idx → EReal := m ((c : Thread nD τ).loc main_arg8)
abbrev A9 (c : Dev nD) : S1024.Idx → EReal := m ((c : Thread nD τ).loc main_arg9)

/-- Row `r` of batch `n` of `x`; batch `n` of `y`; the weights and biases by coordinates. -/
def Xrow (c : Dev nD) (n : Fin 16) (r : Fin 4096) : Fin 1024 → EReal := fun d => A0 m c (ix3 n r d)
def Yb (c : Dev nD) (n : Fin 16) : Fin 77 → Fin 768 → EReal := fun j k => A1 m c (ix3 n j k)
def Wq (c : Dev nD) : Fin 1024 → Fin 1024 → EReal := fun d e => A2 m c (ix2 d e)
def bq (c : Dev nD) : Fin 1024 → EReal := fun e => A3 m c (ix1 e)
def Wk (c : Dev nD) : Fin 768 → Fin 1024 → EReal := fun k e => A4 m c (ix2 k e)
def bk (c : Dev nD) : Fin 1024 → EReal := fun e => A5 m c (ix1 e)
def Wv (c : Dev nD) : Fin 768 → Fin 1024 → EReal := fun k e => A6 m c (ix2 k e)
def bv (c : Dev nD) : Fin 1024 → EReal := fun e => A7 m c (ix1 e)
def Wo (c : Dev nD) : Fin 1024 → Fin 1024 → EReal := fun e f => A8 m c (ix2 e f)
def bo (c : Dev nD) : Fin 1024 → EReal := fun f => A9 m c (ix1 f)

/-- The padded keys and values of batch `n`. -/
def Kp (c : Dev nD) (n : Fin 16) : Fin 128 → Fin 1024 → EReal := pad (proj (Yb m c n) (Wk m c) (bk m c))
def Vp (c : Dev nD) (n : Fin 16) : Fin 128 → Fin 1024 → EReal := pad (proj (Yb m c n) (Wv m c) (bv m c))

/-- The batch a grid point works on, and the row of that batch its tile's row `r` is. -/
def bat (t : Fin cfg0.N) : Fin 16 := ⟨t.val / 4, by have := Cert.KIBlocks.lt64 t; omega⟩
def rowOf (t : Fin cfg0.N) (r : Fin 1024) : Fin 4096 := ⟨1024 * (t.val % 4) + r.val, by have := r.isLt; omega⟩

/-- The kernel's formula depends on its five arguments pointwise. -/
theorem finalKer_congr {q q' : Fin 1024 → EReal} {K K' V V' : Fin 128 → Fin 1024 → EReal} {W W' : Fin 1024 → Fin 1024 → EReal}
    {b b' : Fin 1024 → EReal} (hq : ∀ e, q e = q' e) (hK : ∀ j e, K j e = K' j e) (hV : ∀ j e, V j e = V' j e)
    (hW : ∀ e f, W e f = W' e f) (hb : ∀ f, b f = b' f) (f : Fin 1024) :
    finalKer q K V W b f = finalKer q' K' V' W' b' f := by
  obtain rfl : q = q' := funext hq
  obtain rfl : K = K' := funext fun j => funext (hK j)
  obtain rfl : V = V' := funext fun j => funext (hV j)
  obtain rfl : W = W' := funext fun e => funext (hW e)
  obtain rfl : b = b' := funext hb
  rfl

/-! ## The opening point of a batch fills the scratches -/

theorem key_open (c : Dev nD) (t : Fin cfg0.N) (h : t.val % 4 = 0) (j : Fin 128) (e : Fin 1024) :
    keyA m c t h (ix2 j e) = Kp m c (bat t) j e := by
  rw [keyA_eq, scratch_canon]
  unfold Kp Cert.XAttn.pad
  by_cases hj : j.val < 77
  · rw [dif_pos hj, dif_pos hj, Cert.KerSpec.pay5_apply]
    unfold proj Yb Wk bk
    simp only [Cert.KIBlocks.iblk1, Cert.KIBlocks.iblk4, Cert.KIBlocks.iblk5]
    rfl
  · rw [dif_neg hj, dif_neg hj, Cert.KerSpec.pay2_apply]

theorem val_open (c : Dev nD) (t : Fin cfg0.N) (h : t.val % 4 = 0) (j : Fin 128) (e : Fin 1024) :
    valA m c t h (ix2 j e) = Vp m c (bat t) j e := by
  rw [valA_eq, scratch_canon]
  unfold Vp Cert.XAttn.pad
  by_cases hj : j.val < 77
  · rw [dif_pos hj, dif_pos hj, Cert.KerSpec.pay6_apply]
    unfold proj Yb Wv bv
    simp only [Cert.KIBlocks.iblk1, Cert.KIBlocks.iblk6, Cert.KIBlocks.iblk7]
    rfl
  · rw [dif_neg hj, dif_neg hj, Cert.KerSpec.pay3_apply]

/-! ## The scratches after every point -/

/-- The recursion of the contents, one step, at a point given by its number: an opening point, -/
theorem outsAt0_open (c : Dev nD) (n : ℕ) (hn : n < cfg0.N) (h0 : n % 4 = 0) :
    outsAt0 m c n hn = (outA m c ⟨n, hn⟩ h0, keyA m c ⟨n, hn⟩ h0, valA m c ⟨n, hn⟩ h0) :=
  outsAt0_A m c ⟨n, hn⟩ h0

/-- and a later point of a batch. -/
theorem outsAt0_step (c : Dev nD) (n : ℕ) (hn : n + 1 < cfg0.N) (h0 : ¬(n + 1) % 4 = 0) :
    outsAt0 m c (n + 1) hn
      = (outB m c ⟨n + 1, hn⟩ h0 (outsAt0 m c n (Nat.lt_of_succ_lt hn)).2.1 (outsAt0 m c n (Nat.lt_of_succ_lt hn)).2.2,
          (outsAt0 m c n (Nat.lt_of_succ_lt hn)).2.1, (outsAt0 m c n (Nat.lt_of_succ_lt hn)).2.2) :=
  (dif_neg h0).trans rfl

set_option maxHeartbeats 1000000 in
theorem scratch_inv (c : Dev nD) : ∀ (n : ℕ) (hn : n < cfg0.N),
    (∀ j e, (outsAt0 m c n hn).2.1 (ix2 j e) = Kp m c (bat ⟨n, hn⟩) j e)
      ∧ (∀ j e, (outsAt0 m c n hn).2.2 (ix2 j e) = Vp m c (bat ⟨n, hn⟩) j e)
  | 0, hn => by
    have h4 : (0 : ℕ) % 4 = 0 := Nat.zero_mod 4
    rw [outsAt0_open m c 0 hn h4]
    dsimp only
    exact ⟨key_open m c ⟨0, hn⟩ h4, val_open m c ⟨0, hn⟩ h4⟩
  | n + 1, hn => by
    by_cases h0 : (n + 1) % 4 = 0
    · rw [outsAt0_open m c (n + 1) hn h0]
      dsimp only
      exact ⟨key_open m c ⟨n + 1, hn⟩ h0, val_open m c ⟨n + 1, hn⟩ h0⟩
    · have ih := scratch_inv c n (Nat.lt_of_succ_lt hn)
      have hb : bat ⟨n + 1, hn⟩ = bat ⟨n, Nat.lt_of_succ_lt hn⟩ := Fin.ext (by show (n + 1) / 4 = n / 4; omega)
      rw [hb, outsAt0_step m c n hn h0]
      dsimp only
      exact ih

/-! ## The output tile after every point -/

/-- The three input blocks the query is made of, as typed arrays. -/
abbrev B0 (c : Dev nD) (t : Fin cfg0.N) : Vec Ideal S1x1024x1024 .f32 := iblk m c 0 t
abbrev B2 (c : Dev nD) (t : Fin cfg0.N) : Vec Ideal S1024x1024 .bf16 := iblk m c 2 t
abbrev B3 (c : Dev nD) (t : Fin cfg0.N) : Vec Ideal S1024 .f32 := iblk m c 3 t
abbrev B8 (c : Dev nD) (t : Fin cfg0.N) : Vec Ideal S1024x1024 .bf16 := iblk m c 8 t
abbrev B9 (c : Dev nD) (t : Fin cfg0.N) : Vec Ideal S1024 .f32 := iblk m c 9 t

theorem query_eq (c : Dev nD) (t : Fin cfg0.N) (r e : Fin 1024) :
    (∑ d : Fin 1024, B0 m c t (ix3 (0 : Fin 1) r d) * B2 m c t (ix2 d e)) + B3 m c t (ix1 e)
      = qKer sC (Xrow m c (bat t) (rowOf t r)) (Wq m c) (bq m c) e := by
  unfold qKer Xrow Wq bq
  simp only [Cert.KIBlocks.iblk0, Cert.KIBlocks.iblk2, Cert.KIBlocks.iblk3]
  rfl

set_option maxHeartbeats 1000000 in
theorem out_inv (c : Dev nD) (t : Fin cfg0.N) (r f : Fin 1024) :
    (outsAt0 m c t.val t.isLt).1 (ix3 (0 : Fin 1) r f)
      = finalKer (qKer sC (Xrow m c (bat t) (rowOf t r)) (Wq m c) (bq m c)) (Kp m c (bat t)) (Vp m c (bat t)) (Wo m c) (bo m c) f := by
  have hW : ∀ e f : Fin 1024, B8 m c t (ix2 e f) = Wo m c e f := fun e f => Cert.KIBlocks.iblk8 m c t e f
  have hb : ∀ f : Fin 1024, B9 m c t (ix1 f) = bo m c f := fun f => Cert.KIBlocks.iblk9 m c t f
  by_cases h0 : t.val % 4 = 0
  · rw [outsAt0_A m c t h0]
    dsimp only
    rw [outA_eq]
    exact (Cert.KerSpec.out_apply (B0 m c t) (B2 m c t) (B3 m c t) (keyA m c t h0) (valA m c t h0) (B8 m c t) (B9 m c t) r f).trans
      (finalKer_congr (fun e => query_eq m c t r e) (fun j e => key_open m c t h0 j e) (fun j e => val_open m c t h0 j e) hW hb f)
  · rw [outsAt0_B m c t h0]
    dsimp only
    rw [outB_eq]
    have hpos : 0 < t.val := Nat.pos_of_ne_zero fun hz => h0 (by rw [hz])
    have hlt : t.val - 1 < cfg0.N := Nat.lt_of_le_of_lt (Nat.sub_le _ _) t.isLt
    have ih := scratch_inv m c (t.val - 1) hlt
    have hbat : bat ⟨t.val - 1, hlt⟩ = bat t := Fin.ext (by show (t.val - 1) / 4 = t.val / 4; omega)
    rw [hbat] at ih
    exact (Cert.KerSpec.out_apply (B0 m c t) (B2 m c t) (B3 m c t) _ _ (B8 m c t) (B9 m c t) r f).trans
      (finalKer_congr (fun e => query_eq m c t r e) ih.1 ih.2 hW hb f)

end Cert.KIValue

end
-- ==== Proof.KI.Cover.lean ====
/-
  Where the result array is written: the grid has 64 points, point t standing for (batch, tile) = (t / 4, t % 4);
  the output window's block at point t is rows 1024·(t % 4) … 1024·(t % 4) + 1023 of batch t / 4, all 1024 columns.
  These blocks tile the whole [16, 4096, 1024] array, and every point writes its block back.
-/
import proofs.«156907_j61048665145417_2_alg».proof.Proof.Gen.KernelIdeal.Frame
import proofs.«156907_j61048665145417_2_alg».proof.Proof.Gen.KernelIdeal.Points
import Idealize.ShloMosaic.Lib.ValueIdx

set_option maxRecDepth 16384

noncomputable section

namespace Cert.KICover

open Cert.KernelIdeal Cert.KernelIdeal.Gen Idealize.ShloMosaic

/-- The grid has 64 points. -/
theorem lt64 (t : Fin cfg0.N) : t.val < 64 := lt_of_lt_of_eq t.isLt N_0

/-- The output window's block index at point t is (t / 4, t % 4, 0). -/
theorem idx10 : ∀ t : Fin cfg0.N, win0_10.index t (0 : Fin 3) = t.val / 4 ∧ win0_10.index t (1 : Fin 3) = t.val % 4
    ∧ win0_10.index t (2 : Fin 3) = 0 :=
  (by decide +kernel : ∀ t : Fin grid0.N, _)

/-- An index of the array is in point t's block iff each coordinate is in the block's range on its axis. -/
theorem mem_blk10 (t : Fin cfg0.N) (i : S16x4096x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v8).slice (win0_10.rect t)).set ↔ _
  rw [View.set_slice_whole, Rect.mem_set_unit]
  exact Iff.rfl

/-- Every index of the array lies in the block of the point t = 4·(batch) + (row / 1024), and that point writes back. -/
theorem cover10 (i : S16x4096x1024.Idx) :
    ∃ t : Fin cfg0.N, (cfg0.win 10).flush t = true ∧ i ∈ ((cfg0.win 10).blk t).view.set := by
  have hi0 : (i 0).val < 16 := (i 0).isLt
  have hi1 : (i 1).val < 4096 := (i 1).isLt
  have hi2 : (i 2).val < 1024 := (i 2).isLt
  obtain ⟨t, ht⟩ : ∃ t : Fin cfg0.N, t.val = 4 * (i 0).val + (i 1).val / 1024 :=
    ⟨⟨4 * (i 0).val + (i 1).val / 1024, lt_of_lt_of_eq (b := 64) (by omega) N_0.symm⟩, rfl⟩
  obtain ⟨e0, e1, e2⟩ := idx10 t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1024 ≤ (i 1).val ∧ (i 1).val < win0_10.index t (1 : Fin 3) * 1024 + 1024; omega
  | ⟨2, _⟩ => show win0_10.index t (2 : Fin 3) * 1024 ≤ (i 2).val ∧ (i 2).val < win0_10.index t (2 : Fin 3) * 1024 + 1024; omega

/-- Entry (0, r, f) of point t's block is entry (t / 4, 1024·(t % 4) + r, f) of the array. -/
theorem emb10 (t : Fin cfg0.N) (r f : Fin 1024) :
    ((cfg0.win 10).blk t).view.emb (ValueIdx.ix3 (0 : Fin 1) r f)
      = ValueIdx.ix3 (⟨t.val / 4, by have := lt64 t; omega⟩ : Fin 16)
          (⟨1024 * (t.val % 4) + r.val, by have := r.isLt; omega⟩ : Fin 4096) f := by
  obtain ⟨e0, e1, e2⟩ := idx10 t
  funext a
  apply Fin.ext
  match a with
  | ⟨0, _⟩ => show win0_10.index t (0 : Fin 3) * 1 + 1 * (0 : Nat) = t.val / 4; omega
  | ⟨1, _⟩ => show win0_10.index t (1 : Fin 3) * 1024 + 1 * r.val = 1024 * (t.val % 4) + r.val; omega
  | ⟨2, _⟩ => show win0_10.index t (2 : Fin 3) * 1024 + 1 * f.val = f.val; omega

end Cert.KICover

end
-- ==== Proof.Algebra.lean ====
/-
  The padded, pre-scaled form of one cross-attention row equals the plain form.

  Two facts carry the whole argument.  First, on real numbers multiplication distributes over finite sums, so the
  scale may be folded into the query weights and bias beforehand.  Second, a family of scores extended by columns
  at −∞ has the same maximum, the same exponential sum (each extra term is exp(−∞) = 0) and soft-max weight 0 on
  every extra column, so the extra columns contribute nothing to the mix of the values.
-/
import proofs.«156907_j61048665145417_2_alg».proof.Proof.Spec

noncomputable section

namespace Cert.XAttn

open Idealize.ShloMosaic

/-! ## Real numbers inside the extended reals -/

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

/-- A finite sum of reals is a real. -/
theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- On reals, multiplication distributes over addition. -/
theorem add_mul_real {a b c : EReal} (ha : IsReal a) (hb : IsReal b) (hc : IsReal c) :
    (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-- On reals, a common right factor may be pulled out of a finite sum. -/
theorem sum_mul_real {ι : Type*} (s : Finset ι) (f : ι → EReal) (c : EReal)
    (hf : ∀ i ∈ s, IsReal (f i)) (hc : IsReal c) :
    ∑ i ∈ s, f i * c = (∑ i ∈ s, f i) * c := by
  classical
  induction s using Finset.induction_on with
  | empty => simp
  | insert a s ha ih =>
    have hs : ∀ i ∈ s, IsReal (f i) := fun i hi => hf i (Finset.mem_insert_of_mem hi)
    rw [Finset.sum_insert ha, Finset.sum_insert ha, ih hs,
      add_mul_real (hf a (Finset.mem_insert_self a s)) (isReal_sum s f hs) hc]

/-! ## The scale folded into the query -/

theorem isReal_qRef (x : Fin 1024 → EReal) (Wq : Fin 1024 → Fin 1024 → EReal) (bq : Fin 1024 → EReal)
    (hx : ∀ d, IsReal (x d)) (hWq : ∀ d e, IsReal (Wq d e)) (hbq : ∀ e, IsReal (bq e)) (e : Fin 1024) :
    IsReal (qRef x Wq bq e) :=
  (isReal_sum _ _ fun d _ => (hx d).mul (hWq d e)).add (hbq e)

theorem isReal_proj (yb : Fin 77 → Fin 768 → EReal) (W : Fin 768 → Fin 1024 → EReal) (b : Fin 1024 → EReal)
    (hy : ∀ j c, IsReal (yb j c)) (hW : ∀ c e, IsReal (W c e)) (hb : ∀ e, IsReal (b e))
    (j : Fin 77) (e : Fin 1024) : IsReal (proj yb W b j e) :=
  (isReal_sum _ _ fun c _ => (hy j c).mul (hW c e)).add (hb e)

/-- The pre-scaled query row is the plain query row times the scale. -/
theorem qKer_eq (s : EReal) (hs : IsReal s)
    (x : Fin 1024 → EReal) (Wq : Fin 1024 → Fin 1024 → EReal) (bq : Fin 1024 → EReal)
    (hx : ∀ d, IsReal (x d)) (hWq : ∀ d e, IsReal (Wq d e)) (hbq : ∀ e, IsReal (bq e)) (e : Fin 1024) :
    qKer s x Wq bq e = qRef x Wq bq e * s := by
  unfold qKer qRef
  have h1 : ∀ d : Fin 1024, x d * (Wq d e * s) = x d * Wq d e * s := fun d => (mul_assoc _ _ _).symm
  rw [Finset.sum_congr rfl fun d _ => h1 d,
    sum_mul_real _ _ _ (fun d _ => (hx d).mul (hWq d e)) hs,
    add_mul_real (isReal_sum _ _ fun d _ => (hx d).mul (hWq d e)) (hbq e) hs]

/-- Scores of the pre-scaled query against real keys are the scaled scores of the plain query. -/
theorem score_eq (s : EReal) (hs : IsReal s) (q k : Fin 1024 → EReal)
    (hq : ∀ e, IsReal (q e)) (hk : ∀ e, IsReal (k e)) :
    ∑ e : Fin 1024, q e * s * k e = (∑ e : Fin 1024, q e * k e) * s := by
  rw [Finset.sum_congr rfl fun e _ => mul_right_comm (q e) s (k e),
    sum_mul_real _ _ _ (fun e _ => (hq e).mul (hk e)) hs]

/-! ## A family of scores extended by columns at −∞ -/

/-- A sum over 128 columns whose last 51 terms vanish is the sum over the first 77. -/
theorem sum_pad {M : Type*} [AddCommMonoid M] (g : Fin 128 → M) (h : Fin 77 → M)
    (h1 : ∀ (j : Fin 128) (hj : j.val < 77), g j = h ⟨j.val, hj⟩)
    (h0 : ∀ j : Fin 128, ¬ j.val < 77 → g j = 0) :
    ∑ j, g j = ∑ j, h j := by
  have hsplit := Fin.sum_univ_add (a := 77) (b := 51) g
  rw [show (∑ j : Fin 128, g j) = ∑ j : Fin (77 + 51), g j from rfl, hsplit]
  have hz : ∑ i : Fin 51, g (Fin.natAdd 77 i) = 0 :=
    Finset.sum_eq_zero fun i _ => h0 _ (by simp [Fin.natAdd])
  rw [hz, add_zero]
  exact Finset.sum_congr rfl fun i _ => h1 (Fin.castAdd 51 i) i.isLt

theorem exp_nonneg (a : EReal) : 0 ≤ Ideal.exp a := by
  induction a using EReal.rec with
  | bot => simp
  | coe r => rw [Ideal.exp_coe]; exact_mod_cast (Real.exp_pos r).le
  | top => simp

section Padded

variable (sc : Fin 77 → EReal) (sc' : Fin 128 → EReal)

/-- The maximum is unchanged by the extra columns. -/
theorem fold_max_pad
    (h1 : ∀ (j : Fin 128) (hj : j.val < 77), sc' j = sc ⟨j.val, hj⟩)
    (h0 : ∀ j : Fin 128, ¬ j.val < 77 → sc' j = ⊥) :
    (Finset.univ : Finset (Fin 128)).fold max ⊥ sc' = (Finset.univ : Finset (Fin 77)).fold max ⊥ sc := by
  change (Finset.univ : Finset (Fin 128)).sup sc' = (Finset.univ : Finset (Fin 77)).sup sc
  apply le_antisymm
  · refine Finset.sup_le fun j _ => ?_
    by_cases hj : j.val < 77
    · rw [h1 j hj]; exact Finset.le_sup (Finset.mem_univ _)
    · rw [h0 j hj]; exact bot_le
  · refine Finset.sup_le fun j _ => ?_
    have := h1 ⟨j.val, by omega⟩ j.isLt
    rw [show sc j = sc' ⟨j.val, by omega⟩ from this.symm]
    exact Finset.le_sup (Finset.mem_univ _)

/-- The maximum of 77 real scores is real. -/
theorem isReal_fold_max (hsc : ∀ j, IsReal (sc j)) :
    IsReal ((Finset.univ : Finset (Fin 77)).fold max ⊥ sc) := by
  change IsReal ((Finset.univ : Finset (Fin 77)).sup sc)
  obtain ⟨i, _, hi⟩ := Finset.exists_mem_eq_sup (Finset.univ : Finset (Fin 77)) ⟨0, Finset.mem_univ _⟩ sc
  rw [hi]; exact hsc i

/-- The exponential sum of 77 real scores, the maximum subtracted, is not zero. -/
theorem expsum_ne_zero (hsc : ∀ j, IsReal (sc j)) :
    (∑ i : Fin 77, Ideal.exp (sc i - (Finset.univ : Finset (Fin 77)).fold max ⊥ sc)) ≠ 0 := by
  have hm : (Finset.univ : Finset (Fin 77)).fold max ⊥ sc = (Finset.univ : Finset (Fin 77)).sup sc := rfl
  obtain ⟨i, _, hi⟩ := Finset.exists_mem_eq_sup (Finset.univ : Finset (Fin 77)) ⟨0, Finset.mem_univ _⟩ sc
  obtain ⟨r, hr⟩ := hsc i
  have hterm : Ideal.exp (sc i - (Finset.univ : Finset (Fin 77)).fold max ⊥ sc) = 1 := by
    rw [hm, hi, hr, ← EReal.coe_sub, sub_self, Ideal.exp_coe, Real.exp_zero, EReal.coe_one]
  have hle := Finset.single_le_sum (f := fun i => Ideal.exp (sc i - (Finset.univ : Finset (Fin 77)).fold max ⊥ sc))
    (fun i _ => exp_nonneg _) (Finset.mem_univ i)
  rw [hterm] at hle
  intro h0
  rw [h0] at hle
  exact absurd hle (by norm_num)

/-- The soft-max weights of the extended family: the old weights on the old columns, zero on the new. -/
theorem softmax_pad
    (h1 : ∀ (j : Fin 128) (hj : j.val < 77), sc' j = sc ⟨j.val, hj⟩)
    (h0 : ∀ j : Fin 128, ¬ j.val < 77 → sc' j = ⊥)
    (hsc : ∀ j, IsReal (sc j)) (j : Fin 128) :
    softmax sc' j = if hj : j.val < 77 then softmax sc ⟨j.val, hj⟩ else 0 := by
  have hmax := fold_max_pad sc sc' h1 h0
  have hsum : (∑ i : Fin 128, Ideal.exp (sc' i - (Finset.univ : Finset (Fin 77)).fold max ⊥ sc))
      = ∑ i : Fin 77, Ideal.exp (sc i - (Finset.univ : Finset (Fin 77)).fold max ⊥ sc) :=
    sum_pad _ _ (fun i hi => by rw [h1 i hi])
      (fun i hi => by rw [h0 i hi, EReal.bot_sub, Ideal.exp_bot])
  unfold softmax
  rw [hmax, hsum]
  by_cases hj : j.val < 77
  · rw [dif_pos hj, h1 j hj]
  · rw [dif_neg hj, h0 j hj, EReal.bot_sub, Ideal.exp_bot]
    unfold Ideal.div
    rw [if_neg (expsum_ne_zero sc hsc), zero_mul]

end Padded

/-! ## The two rows agree -/

theorem finalKer_eq_finalRef (s : EReal) (hs : IsReal s)
    (x : Fin 1024 → EReal) (yb : Fin 77 → Fin 768 → EReal)
    (Wq : Fin 1024 → Fin 1024 → EReal) (bq : Fin 1024 → EReal) (Wk : Fin 768 → Fin 1024 → EReal) (bk : Fin 1024 → EReal)
    (Wv : Fin 768 → Fin 1024 → EReal) (bv : Fin 1024 → EReal) (Wo : Fin 1024 → Fin 1024 → EReal) (bo : Fin 1024 → EReal)
    (hx : ∀ d, IsReal (x d)) (hy : ∀ j c, IsReal (yb j c)) (hWq : ∀ d e, IsReal (Wq d e)) (hbq : ∀ e, IsReal (bq e))
    (hWk : ∀ c e, IsReal (Wk c e)) (hbk : ∀ e, IsReal (bk e)) (hWv : ∀ c e, IsReal (Wv c e)) (hbv : ∀ e, IsReal (bv e))
    (f : Fin 1024) :
    finalKer (qKer s x Wq bq) (pad (proj yb Wk bk)) (pad (proj yb Wv bv)) Wo bo f
      = finalRef s x yb Wq bq Wk bk Wv bv Wo bo f := by
  have hq := isReal_qRef x Wq bq hx hWq hbq
  have hK := isReal_proj yb Wk bk hy hWk hbk
  -- the kernel's scores are the reference's scores extended by 51 columns at −∞
  have h1 : ∀ (j : Fin 128) (hj : j.val < 77),
      scoreKer (qKer s x Wq bq) (pad (proj yb Wk bk)) j
        = scoreRef s (qRef x Wq bq) (proj yb Wk bk) ⟨j.val, hj⟩ := by
    intro j hj
    unfold scoreKer scoreRef
    rw [if_pos hj, ← score_eq s hs _ _ hq (hK ⟨j.val, hj⟩)]
    refine Finset.sum_congr rfl fun e _ => ?_
    rw [qKer_eq s hs x Wq bq hx hWq hbq e]
    unfold pad
    rw [dif_pos hj]
  have h0 : ∀ j : Fin 128, ¬ j.val < 77 →
      scoreKer (qKer s x Wq bq) (pad (proj yb Wk bk)) j = ⊥ := by
    intro j hj
    unfold scoreKer
    rw [if_neg hj]
  have hsc : ∀ j, IsReal (scoreRef s (qRef x Wq bq) (proj yb Wk bk) j) := fun j =>
    (isReal_sum _ _ fun e _ => (hq e).mul (hK j e)).mul hs
  unfold finalKer finalRef
  congr 1
  refine Finset.sum_congr rfl fun e _ => ?_
  congr 1
  refine sum_pad _ _ (fun j hj => ?_) (fun j hj => ?_)
  · rw [softmax_pad _ _ h1 h0 hsc j, dif_pos hj]
    unfold pad
    rw [dif_pos hj]
  · rw [softmax_pad _ _ h1 h0 hsc j, dif_neg hj, zero_mul]

end Cert.XAttn

end
-- ==== Proof.Finite.lean ====
/-
  The finiteness precondition read back: each of the ten input arrays was tested elementwise for |a| < +∞ and the
  tests were joined by "and" into one bit; that bit being 1 says every entry of every array is an ordinary real
  number.  Also: the soft-max scale constant is an ordinary real number.
-/
import proofs.«156907_j61048665145417_2_alg».proof.Proof.Spec
import proofs.«156907_j61048665145417_2_alg».proof.Pre_finite_inputs
import proofs.«156907_j61048665145417_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has exactly one index. -/
instance : Subsingleton S_.Idx := ⟨fun a b => funext fun d => d.elim0⟩

/-- The single-precision pattern with all exponent bits set and no fraction bits is +∞. -/
theorem top_pattern : Ideal.ofBits .f32 0x7F800000#32 = ⊤ := by simp [Ideal.ofBits, Ideal.ieee]

/-- An extended real whose absolute value max x (−x) lies strictly below +∞ is an ordinary real:
    at −∞ the absolute value is +∞, at +∞ likewise, and the remaining case is a coercion. -/
theorem isReal_of_abs_lt_top (x : EReal) (h : max x (-x) < ⊤) : Cert.XAttn.IsReal x := by
  induction x using EReal.rec with
  | bot => simp at h
  | coe r => exact ⟨r, rfl⟩
  | top => simp at h

/-- The comparison bit "|x| < +∞" being 1 says x is an ordinary real. -/
theorem isReal_of_cmp (x : EReal)
    (h : Ideal.cmp .olt (max x (-x)) (Ideal.ofBits .f32 0x7F800000#32) = 1#1) : Cert.XAttn.IsReal x := by
  rw [top_pattern] at h
  unfold Ideal.cmp at h
  apply isReal_of_abs_lt_top
  by_contra hn
  simp [hn] at h

/-- One array: if the "and" over all entries of the tests |a i| < +∞ came out 1, every entry is an ordinary real. -/
theorem all_real_of_reduce {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
          (cmpf .olt (Host.absf a) (broadcastInDim S ![] hb (constant (F := Ideal) S_ .f32 0x7F800000#32)))
          (constantI S_ 1 1#1) hr hu ValueIdx.ix0 = 1#1) :
    ∀ i, Cert.XAttn.IsReal (a i) := fun i =>
  isReal_of_cmp (a i) (Host.reduce_andi_all _ _ hr hu _ e i)

theorem all_real [Cert.Pre_finite_inputs.Facts]
    (a0 : FVec Ideal Cert.Pre_finite_inputs.S16x4096x1024 .f32) (a1 : FVec Ideal Cert.Pre_finite_inputs.S16x77x768 .f32)
    (a2 : FVec Ideal Cert.Pre_finite_inputs.S1024x1024 .f32) (a3 : FVec Ideal Cert.Pre_finite_inputs.S1024 .f32)
    (a4 : FVec Ideal Cert.Pre_finite_inputs.S768x1024 .f32) (a5 : FVec Ideal Cert.Pre_finite_inputs.S1024 .f32)
    (a6 : FVec Ideal Cert.Pre_finite_inputs.S768x1024 .f32) (a7 : FVec Ideal Cert.Pre_finite_inputs.S1024 .f32)
    (a8 : FVec Ideal Cert.Pre_finite_inputs.S1024x1024 .f32) (a9 : FVec Ideal Cert.Pre_finite_inputs.S1024 .f32)
    (h : Cert.Pre_finite_inputs.fn (F := Ideal) a0 a1 a2 a3 a4 a5 a6 a7 a8 a9 = fun _ => 1#1) :
    (∀ i, Cert.XAttn.IsReal (a0 i)) ∧ (∀ i, Cert.XAttn.IsReal (a1 i)) ∧ (∀ i, Cert.XAttn.IsReal (a2 i)) ∧ (∀ i, Cert.XAttn.IsReal (a3 i)) ∧ (∀ i, Cert.XAttn.IsReal (a4 i))
      ∧ (∀ i, Cert.XAttn.IsReal (a5 i)) ∧ (∀ i, Cert.XAttn.IsReal (a6 i)) ∧ (∀ i, Cert.XAttn.IsReal (a7 i)) ∧ (∀ i, Cert.XAttn.IsReal (a8 i)) ∧ (∀ i, Cert.XAttn.IsReal (a9 i)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨h0, h1⟩, h2⟩, h3⟩, h4⟩, h5⟩, h6⟩, h7⟩, h8⟩, h9⟩ := e
  exact ⟨all_real_of_reduce a0 _ _ _ h0, all_real_of_reduce a1 _ _ _ h1, all_real_of_reduce a2 _ _ _ h2,
    all_real_of_reduce a3 _ _ _ h3, all_real_of_reduce a4 _ _ _ h4, all_real_of_reduce a5 _ _ _ h5,
    all_real_of_reduce a6 _ _ _ h6, all_real_of_reduce a7 _ _ _ h7, all_real_of_reduce a8 _ _ _ h8,
    all_real_of_reduce a9 _ _ _ h9⟩

/-- The pattern 0x3DB504F3 has exponent field 123, neither all ones nor zero: it denotes the finite number
    (2^23 + 3474675) · 2^(123 − 127 − 23). -/
theorem sC_real : Cert.XAttn.IsReal Cert.XAttn.sC := by
  unfold Cert.XAttn.sC Ideal.ofBits Ideal.ieee
  dsimp only
  rw [if_neg (by decide), if_neg (by decide)]
  exact ⟨_, rfl⟩

end Cert.Finite

end
-- ==== Proof.KI.Final.lean ====
/-
  The result array of the idealized kernel's run, as ONE function of the argument arrays: entry (n, r, f) is the
  reference's attention formula of row r of batch n.  Each grid point writes back the tile it computed; the tile's rows
  are the kernel's formula (scale folded into the query weights, keys and values padded, padding scores at −∞), which
  for finite inputs is the reference's formula; the 64 tiles cover the array.
-/
import proofs.«156907_j61048665145417_2_alg».proof.Proof.KI.Points
import proofs.«156907_j61048665145417_2_alg».proof.Proof.KI.Cover
import proofs.«156907_j61048665145417_2_alg».proof.Proof.Algebra
import proofs.«156907_j61048665145417_2_alg».proof.Proof.Finite
import proofs.«156907_j61048665145417_2_alg».proof.Defs

set_option maxRecDepth 16384

noncomputable section

namespace Cert.KIValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.XAttn

/-- The reference's formula at every entry of the result array. -/
def G (c : Dev nD) : S16x4096x1024.Idx → EReal := fun i =>
  finalRef sC (Xrow m c ⟨(i 0).val, (i 0).isLt⟩ ⟨(i 1).val, (i 1).isLt⟩) (Yb m c ⟨(i 0).val, (i 0).isLt⟩)
    (Wq m c) (bq m c) (Wk m c) (bk m c) (Wv m c) (bv m c) (Wo m c) (bo m c) ⟨(i 2).val, (i 2).isLt⟩

theorem G_ix3 (c : Dev nD) (n : Fin 16) (r : Fin 4096) (f : Fin 1024) :
    G m c (ix3 n r f) = finalRef sC (Xrow m c n r) (Yb m c n) (Wq m c) (bq m c) (Wk m c) (bk m c) (Wv m c) (bv m c) (Wo m c) (bo m c) f := rfl

/-- Under the precondition every entry of every argument array is a real number. -/
theorem reals [Cert.Pre_finite_inputs.Facts] (hpre : Cert.Pre_KernelIdeal m) (c : Dev nD) :
    (∀ i, IsReal (A0 m c i)) ∧ (∀ i, IsReal (A1 m c i)) ∧ (∀ i, IsReal (A2 m c i)) ∧ (∀ i, IsReal (A3 m c i)) ∧ (∀ i, IsReal (A4 m c i))
      ∧ (∀ i, IsReal (A5 m c i)) ∧ (∀ i, IsReal (A6 m c i)) ∧ (∀ i, IsReal (A7 m c i)) ∧ (∀ i, IsReal (A8 m c i)) ∧ (∀ i, IsReal (A9 m c i)) :=
  Cert.Finite.all_real _ _ _ _ _ _ _ _ _ _ (hpre c)

/-- What point `t` writes back is tile `t` of `G`. -/
theorem flushed_eq [Cert.Pre_finite_inputs.Facts] (hpre : Cert.Pre_KernelIdeal m) (c : Dev nD) (t : Fin cfg0.N) :
    (dats m 0 c).flushed 10 t = ((cfg0.win 10).blk t).view.read (Elt Ideal) (G m c) := by
  obtain ⟨h0, h1, h2, h3, h4, h5, h6, h7, h8, h9⟩ := reals m hpre c
  have key : ∀ y : S1x1024x1024.Idx, (outsAt0 m c t.val t.isLt).1 y = G m c (((cfg0.win 10).blk t).view.emb y) := by
    intro y
    obtain ⟨u, r, f, rfl⟩ : ∃ (u : Fin 1) (r f : Fin 1024), y = ix3 u r f := ⟨y 0, y 1, y 2, eq_ix3 y⟩
    obtain rfl : u = 0 := Subsingleton.elim _ _
    rw [out_inv, Cert.KICover.emb10]
    show _ = finalRef sC (Xrow m c (bat t) (rowOf t r)) (Yb m c (bat t)) (Wq m c) (bq m c) (Wk m c) (bk m c) (Wv m c) (bv m c) (Wo m c) (bo m c) f
    exact finalKer_eq_finalRef sC Cert.Finite.sC_real _ _ _ _ _ _ _ _ _ _
      (fun d => h0 _) (fun j k => h1 _) (fun d e => h2 _) (fun e => h3 _) (fun k e => h4 _) (fun e => h5 _) (fun k e => h6 _) (fun e => h7 _) f
  show (cfg0.win 10).cut (grid0.coords t) ((dats m 0 c).after 10 t) = _
  rw [after0_10]
  funext y
  exact key y

/-- The result array after the run is `G`. -/
theorem final [Cert.Pre_finite_inputs.Facts] (hpre : Cert.Pre_KernelIdeal m) (c : Dev nD) : (dats m 0 c).arrAt 10 cfg0.N = G m c :=
  (dats m 0 c).arrAt_eq_of_cover 10 (G m c) (fun t _ => flushed_eq m hpre c t) Cert.KICover.cover10

/-- The idealized kernel's run, read: it terminates with the result array at `G` and the arguments unchanged. -/
theorem run [Cert.Pre_finite_inputs.Facts] (hpre : Cert.Pre_KernelIdeal m) :
    θ_run (Cert.KernelIdeal.defs (F := Ideal)) (onTc (τ := τ) (main (F := Ideal))) ⟨m, fun _ => 0, ρ⟩ fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 10).trans (final m hpre c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c)))⟩)
    (run_main m ρ)

end Cert.KIValue

end
-- ==== Proof.RefSpec.lean ====
/-
  The reference program read as a formula.  Each of its stages is read at an index written by coordinates:
  the three projections (query, key, value) as a sum over the contracted coordinate plus a bias; the scaled
  score as the sum over the 1024 features times the scale; the row maximum as one fold of max from −∞ over
  the 77 scores; the soft-max weight as exp (score − maximum) over the sum of these; the mix with the values;
  and the output projection.  Put together, the program's result at (n, r, f) is the attention row of the
  specification, finalRef, applied to row r of batch n of the queries and the 77 context rows of batch n.
-/
import proofs.«156907_j61048665145417_2_alg».proof.Proof.Spec
import proofs.«156907_j61048665145417_2_alg».proof.Proof.Gen.ReferenceIdeal.Read
import proofs.«156907_j61048665145417_2_alg».proof.Proof.LibRowBlocks
import Idealize.ShloMosaic.Lib.ValueIdx
import Idealize.ShloMosaic.Lib.Pipeline.Value
import Idealize.ShloMosaic.PureOps.Ideal.Laws

noncomputable section

namespace Cert.RefSpec

open Cert.ReferenceIdeal Cert.ReferenceIdeal.Gen Cert.ReferenceIdeal.Read Idealize.ShloMosaic Idealize.ShloMosaic.ValueIdx
open Cert.XAttn

variable (x0 : (⟨S16x4096x1024, .f32⟩ : BufTy).Contents (Elt Ideal)) (x1 : (⟨S16x77x768, .f32⟩ : BufTy).Contents (Elt Ideal))
  (x2 : (⟨S1024x1024, .f32⟩ : BufTy).Contents (Elt Ideal)) (x3 : (⟨S1024, .f32⟩ : BufTy).Contents (Elt Ideal))
  (x4 : (⟨S768x1024, .f32⟩ : BufTy).Contents (Elt Ideal)) (x5 : (⟨S1024, .f32⟩ : BufTy).Contents (Elt Ideal))
  (x6 : (⟨S768x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-! ## The three projections -/

/-- The query stage at (n, r, e): row r of batch n of the queries times column e of the weights, plus the bias. -/
theorem q_apply (n : Fin 16) (r : Fin 4096) (e : Fin 1024) :
    val_main_v3 (F := Ideal) x0 x2 x3 (ix3 n r e)
      = qRef (fun d => x0 (ix3 n r d)) (fun d e => x2 (ix2 d e)) (fun e => x3 (ix1 e)) e := by
  rw [val_main_v3_apply, val_main_v0_apply, val_main_v2_apply, val_main_v1_apply]
  have hl : ∀ k : Fin 1024, lidx_main_v0 (ix3 n r e) k = ix3 n r k := fun k => funext fun a => Fin.ext (by
    match a with | ⟨0, _⟩ => rfl | ⟨1, _⟩ => rfl | ⟨2, _⟩ => rfl)
  have hr : ∀ k : Fin 1024, ridx_main_v0 (ix3 n r e) k = ix2 k e := fun k => funext fun a => Fin.ext (by
    match a with | ⟨0, _⟩ => rfl | ⟨1, _⟩ => rfl)
  have hb : idx_main_v1 (idx_main_v2 (ix3 n r e)) = ix1 e := funext fun a => Fin.ext (by
    match a with | ⟨0, _⟩ => rfl)
  simp only [hl, hr, hb, Ideal.addf_def]
  rfl

/-- The key stage at (n, j, e): context row j of batch n times column e of the key weights, plus the bias. -/
theorem k_apply (n : Fin 16) (j : Fin 77) (e : Fin 1024) :
    val_main_v7 (F := Ideal) x1 x4 x5 (ix3 n j e)
      = proj (fun j c => x1 (ix3 n j c)) (fun c e => x4 (ix2 c e)) (fun e => x5 (ix1 e)) j e := by
  rw [val_main_v7_apply, val_main_v4_apply, val_main_v6_apply, val_main_v5_apply]
  have hl : ∀ k : Fin 768, lidx_main_v4 (ix3 n j e) k = ix3 n j k := fun k => funext fun a => Fin.ext (by
    match a with | ⟨0, _⟩ => rfl | ⟨1, _⟩ => rfl | ⟨2, _⟩ => rfl)
  have hr : ∀ k : Fin 768, ridx_main_v4 (ix3 n j e) k = ix2 k e := fun k => funext fun a => Fin.ext (by
    match a with | ⟨0, _⟩ => rfl | ⟨1, _⟩ => rfl)
  have hb : idx_main_v5 (idx_main_v6 (ix3 n j e)) = ix1 e := funext fun a => Fin.ext (by
    match a with | ⟨0, _⟩ => rfl)
  simp only [hl, hr, hb, Ideal.addf_def]
  rfl

/-- The value stage at (n, j, e): context row j of batch n times column e of the value weights, plus the bias. -/
theorem v_apply (n : Fin 16) (j : Fin 77) (e : Fin 1024) :
    val_main_v11 (F := Ideal) x1 x6 x7 (ix3 n j e)
      = proj (fun j c => x1 (ix3 n j c)) (fun c e => x6 (ix2 c e)) (fun e => x7 (ix1 e)) j e := by
  rw [val_main_v11_apply, val_main_v8_apply, val_main_v10_apply, val_main_v9_apply]
  have hl : ∀ k : Fin 768, lidx_main_v8 (ix3 n j e) k = ix3 n j k := fun k => funext fun a => Fin.ext (by
    match a with | ⟨0, _⟩ => rfl | ⟨1, _⟩ => rfl | ⟨2, _⟩ => rfl)
  have hr : ∀ k : Fin 768, ridx_main_v8 (ix3 n j e) k = ix2 k e := fun k => funext fun a => Fin.ext (by
    match a with | ⟨0, _⟩ => rfl | ⟨1, _⟩ => rfl)
  have hb : idx_main_v9 (idx_main_v10 (ix3 n j e)) = ix1 e := funext fun a => Fin.ext (by
    match a with | ⟨0, _⟩ => rfl)
  simp only [hl, hr, hb, Ideal.addf_def]
  rfl

/-! ## The scaled scores -/

/-- The query row of the specification at (n, r). -/
abbrev qRow (n : Fin 16) (r : Fin 4096) : Fin 1024 → EReal :=
  qRef (fun d => x0 (ix3 n r d)) (fun d e => x2 (ix2 d e)) (fun e => x3 (ix1 e))

/-- The projected keys of batch n. -/
abbrev kRows (n : Fin 16) : Fin 77 → Fin 1024 → EReal :=
  proj (fun j c => x1 (ix3 n j c)) (fun c e => x4 (ix2 c e)) (fun e => x5 (ix1 e))

/-- The projected values of batch n. -/
abbrev vRows (n : Fin 16) : Fin 77 → Fin 1024 → EReal :=
  proj (fun j c => x1 (ix3 n j c)) (fun c e => x6 (ix2 c e)) (fun e => x7 (ix1 e))

/-- The scaled score stage at (n, r, j): the query row against key row j, times the scale. -/
theorem score_apply (n : Fin 16) (r : Fin 4096) (j : Fin 77) :
    val_main_v14 (F := Ideal) x0 x1 x2 x3 x4 x5 (ix3 n r j)
      = scoreRef sC (qRow x0 x2 x3 n r) (kRows x1 x4 x5 n) j := by
  rw [val_main_v14_apply, val_main_v12_apply, val_main_v13_apply, val_main_cst_apply]
  have hl : ∀ k : Fin 1024, lidx_main_v12 (ix3 n r j) k = ix3 n r k := fun k => funext fun a => Fin.ext (by
    match a with | ⟨0, _⟩ => rfl | ⟨1, _⟩ => rfl | ⟨2, _⟩ => rfl)
  have hr : ∀ k : Fin 1024, ridx_main_v12 (ix3 n r j) k = ix3 n j k := fun k => funext fun a => Fin.ext (by
    match a with | ⟨0, _⟩ => rfl | ⟨1, _⟩ => rfl | ⟨2, _⟩ => rfl)
  simp only [hl, hr, q_apply, k_apply, Ideal.mulf_def, Ideal.ofBits_def]
  rfl

/-! ## The row maximum -/

/-- The host's maximum over the last axis of a rank-3 array, from a rank-zero initial value, is at (p, g) one fold
    of max over the entries (p, g, ·). -/
theorem row_max_host {a b c : ℕ} (x : (⟨3, ![a, b, c]⟩ : Shape).Idx → EReal) (init : (⟨0, ![]⟩ : Shape).Idx → EReal)
    (h' : (⟨3, ![a, b, c]⟩ : Shape).ReducesTo [2] ⟨2, ![a, b]⟩)
    (h : (⟨3, ![a, b, c]⟩ : Shape).Reduces [2] ⟨2, ![a, b]⟩) (hu : 0 < (⟨0, ![]⟩ : Shape).numel)
    (p : Fin a) (g : Fin b) :
    Host.reduce (FloatOps.maximumf (F := Ideal) (φ := .f32)) x init h' hu (ix2 p g)
      = (Finset.univ : Finset (Fin c)).fold max (init ix0) (fun j => x (ix3 p g j)) := by
  refine (Host.reduce_eq_fold_single (FloatOps.maximumf (F := Ideal) (φ := .f32)) x init h' h hu (ix2 p g)).trans ?_
  show (Finset.univ : Finset (Fin c)).fold max (init (Shape.Idx.first hu)) (fun j => x (h.lift (ix2 p g) j)) = _
  have e : ∀ j : Fin c, h.lift (ix2 p g) j = ix3 p g j := fun j => funext fun d => Fin.ext (by
    match d with
    | ⟨0, _⟩ => rfl
    | ⟨1, _⟩ => rfl
    | ⟨2, _⟩ => rfl)
  rw [eq_ix0 (Shape.Idx.first hu)]
  exact congrArg (fun f : Fin c → EReal => (Finset.univ : Finset (Fin c)).fold max (init ix0) f)
    (funext fun j => congrArg x (e j))

/-- The pattern 0xFF800000 is −∞. -/
theorem ofBits_neg_inf : Ideal.ofBits .f32 0xFF800000#32 = (⊥ : EReal) := by simp [Ideal.ofBits, Ideal.ieee]

theorem reduces_last : S16x4096x77.Reduces [2] S16x4096 := by decide

/-- The maximum stage at (n, r): the fold of max from −∞ over the 77 scaled scores of the row. -/
theorem max_apply (n : Fin 16) (r : Fin 4096) :
    val_main_v17 (F := Ideal) x0 x1 x2 x3 x4 x5 (ix2 n r)
      = (Finset.univ : Finset (Fin 77)).fold max ⊥ (scoreRef sC (qRow x0 x2 x3 n r) (kRows x1 x4 x5 n)) := by
  rw [val_main_v17_apply, val_main_v16_apply, val_main_cst_1_apply]
  unfold val_main_v15
  rw [row_max_host (val_main_v14 (F := Ideal) x0 x1 x2 x3 x4 x5) (val_main_cst_0 (F := Ideal))
    reducesTo_S16x4096x77_S16x4096_d2 reduces_last h_S_ n r, val_main_cst_0_apply]
  simp only [Ideal.maximumf_def, Ideal.ofBits_def, ofBits_neg_inf, score_apply, bot_le, max_eq_right]

/-! ## The soft-max weights -/

/-- The 77 scaled scores of row (n, r), as the specification writes them. -/
abbrev scRow (n : Fin 16) (r : Fin 4096) : Fin 77 → EReal :=
  scoreRef sC (qRow x0 x2 x3 n r) (kRows x1 x4 x5 n)

/-- The exponential stage at (n, r, j): exp of the score minus the row maximum. -/
theorem exp_apply (n : Fin 16) (r : Fin 4096) (j : Fin 77) :
    val_main_v21 (F := Ideal) x0 x1 x2 x3 x4 x5 (ix3 n r j)
      = Ideal.exp (scRow x0 x1 x2 x3 x4 x5 n r j
          - (Finset.univ : Finset (Fin 77)).fold max ⊥ (scRow x0 x1 x2 x3 x4 x5 n r)) := by
  rw [val_main_v21_apply, val_main_v20_apply, val_main_v19_apply, val_main_v18_apply]
  have hm : idx_main_v18 (idx_main_v19 (ix3 n r j)) = ix2 n r := funext fun a => Fin.ext (by
    match a with | ⟨0, _⟩ => rfl | ⟨1, _⟩ => rfl)
  rw [hm, max_apply, score_apply]
  rfl

/-- The sum stage at (n, r): the sum of the 77 exponentials of the row. -/
theorem sum_apply (n : Fin 16) (r : Fin 4096) :
    val_main_v22 (F := Ideal) x0 x1 x2 x3 x4 x5 (ix2 n r)
      = ∑ i : Fin 77, Ideal.exp (scRow x0 x1 x2 x3 x4 x5 n r i
          - (Finset.univ : Finset (Fin 77)).fold max ⊥ (scRow x0 x1 x2 x3 x4 x5 n r)) := by
  rw [val_main_v22_apply, val_main_cst_2_apply]
  have hk : ∀ k : Fin 77, idx_main_v22 (ix2 n r) k = ix3 n r k := fun k => funext fun a => Fin.ext (by
    match a with | ⟨0, _⟩ => rfl | ⟨1, _⟩ => rfl | ⟨2, _⟩ => rfl)
  simp only [hk, exp_apply, Ideal.ofBits_def, Ideal.ofBits_zero_f32, zero_add]

/-- The weight stage at (n, r, j): the soft-max of the row's scores at j. -/
theorem weight_apply (n : Fin 16) (r : Fin 4096) (j : Fin 77) :
    val_main_v25 (F := Ideal) x0 x1 x2 x3 x4 x5 (ix3 n r j) = softmax (scRow x0 x1 x2 x3 x4 x5 n r) j := by
  rw [val_main_v25_apply, val_main_v24_apply, val_main_v23_apply]
  have hs : idx_main_v23 (idx_main_v24 (ix3 n r j)) = ix2 n r := funext fun a => Fin.ext (by
    match a with | ⟨0, _⟩ => rfl | ⟨1, _⟩ => rfl)
  rw [hs, sum_apply, exp_apply]
  rfl

/-! ## The mix with the values and the output projection -/

/-- The mix stage at (n, r, e): the soft-max weights of the row against column e of the projected values. -/
theorem mix_apply (n : Fin 16) (r : Fin 4096) (e : Fin 1024) :
    val_main_v26 (F := Ideal) x0 x1 x2 x3 x4 x5 x6 x7 (ix3 n r e)
      = ∑ j : Fin 77, softmax (scRow x0 x1 x2 x3 x4 x5 n r) j * vRows x1 x6 x7 n j e := by
  rw [val_main_v26_apply]
  have hl : ∀ k : Fin 77, lidx_main_v26 (ix3 n r e) k = ix3 n r k := fun k => funext fun a => Fin.ext (by
    match a with | ⟨0, _⟩ => rfl | ⟨1, _⟩ => rfl | ⟨2, _⟩ => rfl)
  have hr : ∀ k : Fin 77, ridx_main_v26 (ix3 n r e) k = ix3 n k e := fun k => funext fun a => Fin.ext (by
    match a with | ⟨0, _⟩ => rfl | ⟨1, _⟩ => rfl | ⟨2, _⟩ => rfl)
  simp only [hl, hr, weight_apply, v_apply]

/-- The reference program's result at (n, r, f) is the specification's attention row: row r of batch n of the
    queries against the 77 context rows of batch n, projected out, at f. -/
theorem ref_apply (n : Fin 16) (r : Fin 4096) (f : Fin 1024) :
    val_main_v30 (F := Ideal) x0 x1 x2 x3 x4 x5 x6 x7 x8 x9 (ix3 n r f)
      = finalRef sC (fun d => x0 (ix3 n r d)) (fun j c => x1 (ix3 n j c)) (fun d e => x2 (ix2 d e)) (fun e => x3 (ix1 e))
          (fun c e => x4 (ix2 c e)) (fun e => x5 (ix1 e)) (fun c e => x6 (ix2 c e)) (fun e => x7 (ix1 e))
          (fun e f => x8 (ix2 e f)) (fun f => x9 (ix1 f)) f := by
  rw [val_main_v30_apply, val_main_v27_apply, val_main_v29_apply, val_main_v28_apply]
  have hl : ∀ k : Fin 1024, lidx_main_v27 (ix3 n r f) k = ix3 n r k := fun k => funext fun a => Fin.ext (by
    match a with | ⟨0, _⟩ => rfl | ⟨1, _⟩ => rfl | ⟨2, _⟩ => rfl)
  have hr : ∀ k : Fin 1024, ridx_main_v27 (ix3 n r f) k = ix2 k f := fun k => funext fun a => Fin.ext (by
    match a with | ⟨0, _⟩ => rfl | ⟨1, _⟩ => rfl)
  have hb : idx_main_v28 (idx_main_v29 (ix3 n r f)) = ix1 f := funext fun a => Fin.ext (by
    match a with | ⟨0, _⟩ => rfl)
  simp only [hl, hr, hb, mix_apply, Ideal.addf_def]
  rfl

end Cert.RefSpec

end
-- ==== Proof.lean ====
/-
  The certificate of the tiled cross-attention kernel against its plain reference.
  Both programs compute, for every batch n and query row r, softmax((x·Wq + bq)(y·Wk + bk)ᵀ / √128) · (y·Wv + bv) · Wo + bo.
  The kernel folds the scale into Wq and bq beforehand, works on tiles of 1024 query rows, keeps the batch's keys and
  values in two scratch buffers padded with zero rows from 77 to 128, and replaces the 51 padding scores by a large
  negative fill, which the idealization reads as −∞: then the padding columns carry no weight (exp(−∞) = 0), and for
  finite inputs the scale moves through the sums (distributivity holds on the reals), so both programs are one
  function of the arguments.  The kernel's frames (termination, no fault, arguments unchanged) come from running its body
  once for the opening point of a batch and once for a later point, the scratch contents carried between points.
-/
import proofs.«156907_j61048665145417_2_alg».proof.Defs
import proofs.«156907_j61048665145417_2_alg».proof.Proof.Gen.Kernel
import proofs.«156907_j61048665145417_2_alg».proof.Proof.Gen.KernelIdeal
import proofs.«156907_j61048665145417_2_alg».proof.Proof.Gen.ReferenceIdeal
import proofs.«156907_j61048665145417_2_alg».proof.Proof.Gen.Pre_finite_inputs
import proofs.«156907_j61048665145417_2_alg».proof.Proof.Gen.ReferenceIdeal.Read
import proofs.«156907_j61048665145417_2_alg».proof.Proof.KB.Frame
import proofs.«156907_j61048665145417_2_alg».proof.Proof.KI.Final
import proofs.«156907_j61048665145417_2_alg».proof.Proof.RefSpec
import Idealize.ShloMosaic.Adequacy
import Idealize.ShloMosaic.Init
import Idealize.ShloMosaic.PureOps.IdealRules

set_option maxRecDepth 16384

noncomputable section

namespace Cert.Proof

open Idealize.ShloMosaic Idealize.ShloMosaic.TcCoe Idealize.SL.Sem Idealize.ShloMosaic.ValueIdx

/-- The bit-level kernel terminates, faults nowhere and leaves its arguments unchanged. -/
theorem frame_k [hP : Cert.Pre_finite_inputs.Facts] : Cert.frame_Kernel (hKernel := Cert.Kernel.Gen.facts) :=
  fun m ρ _ => Cert.Kernel.Gen.frame m ρ

/-- So does its idealization. -/
theorem frame_ki [hP : Cert.Pre_finite_inputs.Facts] : Cert.frame_KernelIdeal (hKernelIdeal := Cert.KernelIdeal.Gen.facts) :=
  fun m ρ _ => Cert.KernelIdeal.Gen.frame m ρ

/-- The reference is a straight line of host operations: its run with the result dropped. -/
theorem frame_ri [hP : Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- The one rewrite of the idealization: the mask fill, a finite stand-in, is read as −∞. -/
theorem preserves : Cert.preserves_Kernel_KernelIdeal :=
  IdealRules.named_const.statement Cert.KernelIdeal.κ "neg_big" .f32 0xFF333332#32 ⊥ rfl

/-- The reference's result array is the same function `G` of its own argument arrays. -/
theorem ref_is_G (m' : (ℓ : Loc Cert.ReferenceIdeal.nD Cert.ReferenceIdeal.τ Cert.ReferenceIdeal.sig) → Buf (Elt Ideal) ℓ)
    (m : (ℓ : Loc Cert.KernelIdeal.nD Cert.KernelIdeal.τ Cert.KernelIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v30 m' c = Cert.KIValue.G m c := by
  rw [Cert.ReferenceIdeal.Read.val_main_v30_eq, e0, e1, e2, e3, e4, e5, e6, e7, e8, e9]
  funext i
  obtain ⟨n, r, f, rfl⟩ : ∃ (n : Fin 16) (r : Fin 4096) (f : Fin 1024), i = ix3 n r f := ⟨i 0, i 1, i 2, eq_ix3 i⟩
  rw [Cert.KIValue.G_ix3]
  exact Cert.RefSpec.ref_apply _ _ _ _ _ _ _ _ _ _ n r f

/-- The two idealized programs, run from memories that agree on the arguments, end with equal results. -/
theorem algebraic [hP : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨fun c => Cert.KIValue.G m c, Cert.KIValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  exact ref_is_G m' m c e0 e1 e2 e3 e4 e5 e6 e7 e8 e9

theorem claim : Cert.Claim :=
  ⟨Cert.Kernel.Gen.facts, Cert.KernelIdeal.Gen.facts, Cert.ReferenceIdeal.Gen.facts, Cert.Pre_finite_inputs.Gen.facts,
    frame_k (hP := Cert.Pre_finite_inputs.Gen.facts), frame_ki (hP := Cert.Pre_finite_inputs.Gen.facts),
    frame_ri (hP := Cert.Pre_finite_inputs.Gen.facts), preserves, algebraic (hP := Cert.Pre_finite_inputs.Gen.facts)⟩

end Cert.Proof

end
